-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S102000x12 : Shape := ⟨2, ![102000, 12]⟩
abbrev S102000 : Shape := ⟨1, ![102000]⟩
abbrev S1000000 : Shape := ⟨1, ![1000000]⟩
abbrev S30001x128 : Shape := ⟨2, ![30001, 128]⟩
abbrev S128x128 : Shape := ⟨2, ![128, 128]⟩
abbrev S128 : Shape := ⟨1, ![128]⟩
abbrev S_ : Shape := ⟨0, ![]⟩

class Facts : Prop where
  bcast_S_S102000 : S_.BroadcastsInDim S102000 (![] : Fin 0 → Fin S102000.rank)
  reducesTo_S102000_S_d0 : S102000.ReducesTo [0] S_
  h_S_ : 0 < S_.numel
  bcast_S_S30001x128 : S_.BroadcastsInDim S30001x128 (![] : Fin 0 → Fin S30001x128.rank)
  reducesTo_S30001x128_S_d0_1 : S30001x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg10 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg7 : FVec F S128 .f32) (main_arg8 : FVec F S128x128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_v33

def fn {F : FTy → Type} [FloatOps F] (main_arg0 : IVec S102000x12 32) (main_arg1 : FVec F S102000 .f32) (main_arg2 : IVec S1000000 32) (main_arg3 : IVec S1000000 32) (main_arg4 : FVec F S30001x128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S102000 .f32 := Host.absf main_arg1
  let main_cst : FVec F S_ .f32 := constant S_ .f32 0x7F800000#32
  let main_v1 : FVec F S102000 .f32 := broadcastInDim S102000 ![] bcast_S_S102000 main_cst
  let main_v2 : IVec S102000 1 := cmpf .olt main_v0 main_v1
  let main_c : IVec S_ 1 := constantI S_ 1 1#1
  let main_v3 : IVec S_ 1 := (fun x v => Host.reduce IntOp.andi x v reducesTo_S102000_S_d0 h_S_) main_v2 main_c
  let main_v4 : FVec F S30001x128 .f32 := Host.absf main_arg4
  let main_cst_0 : FVec F S_ .f32 := constant S_ .f32 0x7F800000#32
  let main_v5 : FVec F S30001x128 .f32 := broadcastInDim S30001x128 ![] bcast_S_S30001x128 main_cst_0
  let main_v6 : IVec S30001x128 1 := cmpf .olt main_v4 main_v5
  let main_c_1 : IVec S_ 1 := constantI S_ 1 1#1
  let main_v7 : IVec S_ 1 := (fun x v => Host.reduce IntOp.andi x v reducesTo_S30001x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_v13 main_v16
-- ==== Kernel.lean ====
abbrev S102000x12 : Shape := ⟨2, ![102000, 12]⟩
abbrev S102000 : Shape := ⟨1, ![102000]⟩
abbrev S1000000 : Shape := ⟨1, ![1000000]⟩
abbrev S30001x128 : Shape := ⟨2, ![30001, 128]⟩
abbrev S128x128 : Shape := ⟨2, ![128, 128]⟩
abbrev S128 : Shape := ⟨1, ![128]⟩
abbrev S_ : Shape := ⟨0, ![]⟩
abbrev S102000x12x1 : Shape := ⟨3, ![102000, 12, 1]⟩
abbrev S102000x12x128 : Shape := ⟨3, ![102000, 12, 128]⟩
abbrev S102000x128 : Shape := ⟨2, ![102000, 128]⟩
abbrev S102000x1 : Shape := ⟨2, ![102000, 1]⟩
abbrev S1000000x1 : Shape := ⟨2, ![1000000, 1]⟩
abbrev S1000000x128 : Shape := ⟨2, ![1000000, 128]⟩
abbrev S1x128 : Shape := ⟨2, ![1, 128]⟩
abbrev S6000x128 : Shape := ⟨2, ![6000, 128]⟩

abbrev nBuf : Space → Nat
  | .hbm => 73
  | .vmem => 18
  | .smem => 0
  | _ => 0

abbrev bufTy : (tb : Table) → Fin (tcTables nBuf tb) → BufTy
  | .hbm, ⟨0, _⟩ => ⟨S102000x12, .i32⟩
  | .hbm, ⟨1, _⟩ => ⟨S102000, .f32⟩
  | .hbm, ⟨2, _⟩ => ⟨S1000000, .i32⟩
  | .hbm, ⟨3, _⟩ => ⟨S1000000, .i32⟩
  | .hbm, ⟨4, _⟩ => ⟨S30001x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S102000x12, .i32⟩
  | .hbm, ⟨13, _⟩ => ⟨S102000x12, .i1⟩
  | .hbm, ⟨14, _⟩ => ⟨S_, .i32⟩
  | .hbm, ⟨15, _⟩ => ⟨S102000x12, .i32⟩
  | .hbm, ⟨16, _⟩ => ⟨S102000x12, .i32⟩
  | .hbm, ⟨17, _⟩ => ⟨S102000x12, .i32⟩
  | .hbm, ⟨18, _⟩ => ⟨S102000x12x1, .i32⟩
  | .hbm, ⟨19, _⟩ => ⟨S102000x12x128, .f32⟩
  | .hbm, ⟨20, _⟩ => ⟨S_, .f32⟩
  | .hbm, ⟨21, _⟩ => ⟨S102000x128, .f32⟩
  | .hbm, ⟨22, _⟩ => ⟨S102000x1, .f32⟩
  | .hbm, ⟨23, _⟩ => ⟨S102000x128, .f32⟩
  | .hbm, ⟨24, _⟩ => ⟨S102000x128, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S102000, .f32⟩
  | .hbm, ⟨29, _⟩ => ⟨S1000000x1, .i32⟩
  | .hbm, ⟨30, _⟩ => ⟨S102000, .f32⟩
  | .hbm, ⟨31, _⟩ => ⟨S_, .f32⟩
  | .hbm, ⟨32, _⟩ => ⟨S102000, .f32⟩
  | .hbm, ⟨33, _⟩ => ⟨S102000, .f32⟩
  | .hbm, ⟨34, _⟩ => ⟨S102000x1, .f32⟩
  | .hbm, ⟨35, _⟩ => ⟨S102000x128, .bf16⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x128, .bf16⟩
  | .hbm, ⟨45, _⟩ => ⟨S1000000x128, .f32⟩
  | .hbm, ⟨46, _⟩ => ⟨S_, .f32⟩
  | .hbm, ⟨47, _⟩ => ⟨S102000x128, .f32⟩
  | .hbm, ⟨48, _⟩ => ⟨S1000000x1, .i32⟩
  | .hbm, ⟨49, _⟩ => ⟨S102000x128, .f32⟩
  | .hbm, ⟨50, _⟩ => ⟨S102000x128, .f32⟩
  | .hbm, ⟨51, _⟩ => ⟨S102000x128, .f32⟩
  | .hbm, ⟨52, _⟩ => ⟨S1x128, .f32⟩
  | .hbm, ⟨53, _⟩ => ⟨S102000x128, .f32⟩
  | .hbm, ⟨54, _⟩ => ⟨S102000x128, .bf16⟩
  | .hbm, ⟨55, _⟩ => ⟨S_, .i32⟩
  | .hbm, ⟨56, _⟩ => ⟨S1000000, .i32⟩
  | .hbm, ⟨57, _⟩ => ⟨S1000000, .i1⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S1000000, .i32⟩
  | .hbm, ⟨62, _⟩ => ⟨S1000000x1, .i32⟩
  | .hbm, ⟨63, _⟩ => ⟨S1000000x128, .bf16⟩
  | .hbm, ⟨64, _⟩ => ⟨S1000000x128, .f32⟩
  | .hbm, ⟨65, _⟩ => ⟨S_, .f32⟩
  | .hbm, ⟨66, _⟩ => ⟨S102000x128, .f32⟩
  | .hbm, ⟨67, _⟩ => ⟨S1000000x1, .i32⟩
  | .hbm, ⟨68, _⟩ => ⟨S102000x128, .f32⟩
  | .hbm, ⟨69, _⟩ => ⟨S102000x128, .f32⟩
  | .hbm, ⟨70, _⟩ => ⟨S102000x128, .f32⟩
  | .hbm, ⟨71, _⟩ => ⟨S1x128, .f32⟩
  | .hbm, ⟨72, _⟩ => ⟨S102000x128, .f32⟩
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S6000x128, .f32⟩
  | .local _ .vmem, ⟨8, _⟩ => ⟨S6000x128, .f32⟩
  | .local _ .vmem, ⟨9, _⟩ => ⟨S6000x128, .f32⟩
  | .local _ .vmem, ⟨10, _⟩ => ⟨S6000x128, .f32⟩
  | .local _ .vmem, ⟨11, _⟩ => ⟨S6000x128, .f32⟩
  | .local _ .vmem, ⟨12, _⟩ => ⟨S6000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S6000x128, .f32⟩
  | .local _ .vmem, ⟨17, _⟩ => ⟨S6000x128, .f32⟩
  | _, _ => ⟨S102000x12, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S102000x12 : S_.BroadcastsInDim S102000x12 (![] : Fin 0 → Fin S102000x12.rank)
  bcast_S102000x12_S102000x12x1_0_1 : S102000x12.BroadcastsInDim S102000x12x1 (![0, 1] : Fin 2 → Fin S102000x12x1.rank)
  reducesTo_S102000x12x128_S102000x128_d1 : S102000x12x128.ReducesTo [1] S102000x128
  h_S_ : 0 < S_.numel
  bcast_S102000_S102000x1_0 : S102000.BroadcastsInDim S102000x1 (![0] : Fin 1 → Fin S102000x1.rank)
  bcast_S102000x1_S102000x128_0_1 : S102000x1.BroadcastsInDim S102000x128 (![0, 1] : Fin 2 → Fin S102000x128.rank)
  bcast_S_S1000000 : S_.BroadcastsInDim S1000000 (![] : Fin 0 → Fin S1000000.rank)
  bcast_S_S102000 : S_.BroadcastsInDim S102000 (![] : Fin 0 → Fin S102000.rank)
  bcast_S1000000_S1000000x1_0 : S1000000.BroadcastsInDim S1000000x1 (![0] : Fin 1 → Fin S1000000x1.rank)
  bitsLt_bf16_f32 : FTy.bits .bf16 < FTy.bits .f32
  bcast_S_S102000x128 : S_.BroadcastsInDim S102000x128 (![] : Fin 0 → Fin S102000x128.rank)
  bcast_S128_S1x128_1 : S128.BroadcastsInDim S1x128 (![1] : Fin 1 → Fin S1x128.rank)
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  gather_S30001x128_S102000x12x1_S102000x12x128_2_0_n_n_0_2_1128_wf : GatherDims.WF S30001x128 S102000x12x1 S102000x12x128 [2] [0] [] [0] [] 2 ![1, 128]
  scatter_S102000_S1000000x1_S1000000_n_0_0_1_wf : ScatterDims.WF S102000 S1000000x1 S1000000 [] [0] [0] 1
  gather_S102000x128_S1000000x1_S1000000x128_1_0_n_n_0_1_1128_wf : GatherDims.WF S102000x128 S1000000x1 S1000000x128 [1] [0] [] [0] [] 1 ![1, 128]
  scatter_S102000x128_S1000000x1_S1000000x128_1_0_0_1_wf : ScatterDims.WF S102000x128 S1000000x1 S1000000x128 [1] [0] [0] 1
  dot_S6000x128_S128x128_S6000x128_1_0_0_1_n_n_wf : DotDims.WF S6000x128 S128x128 S6000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S102000x128.size a
  hwx0_0 : ∀ i : grid0.Coords, EltTy.bits .f32 = 32 ∨ (Rect.block (s := S102000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S102000x128.size a
  hwx0_1 : ∀ i : grid0.Coords, EltTy.bits .f32 = 32 ∨ (Rect.block (s := S102000x128) S6000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6000x128.size a ≤ S102000x128.size a
  hwx0_5 : ∀ i : grid0.Coords, EltTy.bits .f32 = 32 ∨ (Rect.block (s := S102000x128) S6000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S102000x128.size a
  hwx1_0 : ∀ i : grid1.Coords, EltTy.bits .f32 = 32 ∨ (Rect.block (s := S102000x128) S6000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x128.size a ≤ S102000x128.size a
  hwx1_1 : ∀ i : grid1.Coords, EltTy.bits .f32 = 32 ∨ (Rect.block (s := S102000x128) S6000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6000x128.size a ≤ S102000x128.size a
  hwx1_5 : ∀ i : grid1.Coords, EltTy.bits .f32 = 32 ∨ (Rect.block (s := S102000x128) S6000x128.size (cc1_transform_5 i) (hinb1_5 i)).WholeWords (EltTy.packing .f32)

variable [Facts₀]

def gather_S30001x128_S102000x12x1_S102000x12x128_2_0_n_n_0_2_1128 : GatherDims S30001x128 S102000x12x1 S102000x12x128 where
  offsetDims := [2]
  collapsedSliceDims := [0]
  operandBatchingDims := []
  startIndicesBatchingDims := []
  startIndexMap := [0]
  indexVectorDim := 2
  sliceSizes := ![1, 128]
  wf := gather_S30001x128_S102000x12x1_S102000x12x128_2_0_n_n_0_2_1128_wf
def scatter_S102000_S1000000x1_S1000000_n_0_0_1 : ScatterDims S102000 S1000000x1 S1000000 where
  updateWindowDims := []
  insertedWindowDims := [0]
  scatterDimsToOperandDims := [0]
  indexVectorDim := 1
  wf := scatter_S102000_S1000000x1_S1000000_n_0_0_1_wf
def gather_S102000x128_S1000000x1_S1000000x128_1_0_n_n_0_1_1128 : GatherDims S102000x128 S1000000x1 S1000000x128 where
  offsetDims := [1]
  collapsedSliceDims := [0]
  operandBatchingDims := []
  startIndicesBatchingDims := []
  startIndexMap := [0]
  indexVectorDim := 1
  sliceSizes := ![1, 128]
  wf := gather_S102000x128_S1000000x1_S1000000x128_1_0_n_n_0_1_1128_wf
def scatter_S102000x128_S1000000x1_S1000000x128_1_0_0_1 : ScatterDims S102000x128 S1000000x1 S1000000x128 where
  updateWindowDims := [1]
  insertedWindowDims := [0]
  scatterDimsToOperandDims := [0]
  indexVectorDim := 1
  wf := scatter_S102000x128_S1000000x1_S1000000x128_1_0_0_1_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf

abbrev win0_0 : Pipeline.Window sig grid0 :=
  Pipeline.Window.ofSpec (Memref.whole main_v10) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S6000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S6000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S6000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S102000x12 : Shape := ⟨2, ![102000, 12]⟩
abbrev S102000 : Shape := ⟨1, ![102000]⟩
abbrev S1000000 : Shape := ⟨1, ![1000000]⟩
abbrev S30001x128 : Shape := ⟨2, ![30001, 128]⟩
abbrev S128x128 : Shape := ⟨2, ![128, 128]⟩
abbrev S128 : Shape := ⟨1, ![128]⟩
abbrev S_ : Shape := ⟨0, ![]⟩
abbrev S102000x12x1 : Shape := ⟨3, ![102000, 12, 1]⟩
abbrev S102000x12x128 : Shape := ⟨3, ![102000, 12, 128]⟩
abbrev S102000x128 : Shape := ⟨2, ![102000, 128]⟩
abbrev S102000x1 : Shape := ⟨2, ![102000, 1]⟩
abbrev S1000000x1 : Shape := ⟨2, ![1000000, 1]⟩
abbrev S1000000x128 : Shape := ⟨2, ![1000000, 128]⟩
abbrev S1x128 : Shape := ⟨2, ![1, 128]⟩

abbrev nBuf : Space → Nat
  | .hbm => 95
  | .vmem => 0
  | .smem => 0
  | _ => 0

abbrev bufTy : (tb : Table) → Fin (tcTables nBuf tb) → BufTy
  | .hbm, ⟨0, _⟩ => ⟨S102000x12, .i32⟩
  | .hbm, ⟨1, _⟩ => ⟨S102000, .f32⟩
  | .hbm, ⟨2, _⟩ => ⟨S1000000, .i32⟩
  | .hbm, ⟨3, _⟩ => ⟨S1000000, .i32⟩
  | .hbm, ⟨4, _⟩ => ⟨S30001x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S102000x12, .i32⟩
  | .hbm, ⟨13, _⟩ => ⟨S102000x12, .i1⟩
  | .hbm, ⟨14, _⟩ => ⟨S_, .i32⟩
  | .hbm, ⟨15, _⟩ => ⟨S102000x12, .i32⟩
  | .hbm, ⟨16, _⟩ => ⟨S102000x12, .i32⟩
  | .hbm, ⟨17, _⟩ => ⟨S102000x12, .i32⟩
  | .hbm, ⟨18, _⟩ => ⟨S102000x12x1, .i32⟩
  | .hbm, ⟨19, _⟩ => ⟨S102000x12x128, .f32⟩
  | .hbm, ⟨20, _⟩ => ⟨S_, .f32⟩
  | .hbm, ⟨21, _⟩ => ⟨S102000x128, .f32⟩
  | .hbm, ⟨22, _⟩ => ⟨S102000x1, .f32⟩
  | .hbm, ⟨23, _⟩ => ⟨S102000x128, .f32⟩
  | .hbm, ⟨24, _⟩ => ⟨S102000x128, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S102000, .f32⟩
  | .hbm, ⟨29, _⟩ => ⟨S1000000x1, .i32⟩
  | .hbm, ⟨30, _⟩ => ⟨S102000, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x128, .f32⟩
  | .hbm, ⟨40, _⟩ => ⟨S_, .f32⟩
  | .hbm, ⟨41, _⟩ => ⟨S102000x128, .f32⟩
  | .hbm, ⟨42, _⟩ => ⟨S1000000x1, .i32⟩
  | .hbm, ⟨43, _⟩ => ⟨S102000x128, .f32⟩
  | .hbm, ⟨44, _⟩ => ⟨S_, .f32⟩
  | .hbm, ⟨45, _⟩ => ⟨S102000, .f32⟩
  | .hbm, ⟨46, _⟩ => ⟨S102000, .f32⟩
  | .hbm, ⟨47, _⟩ => ⟨S102000x1, .f32⟩
  | .hbm, ⟨48, _⟩ => ⟨S102000x128, .f32⟩
  | .hbm, ⟨49, _⟩ => ⟨S102000x128, .f32⟩
  | .hbm, ⟨50, _⟩ => ⟨S102000x128, .f32⟩
  | .hbm, ⟨51, _⟩ => ⟨S102000x128, .f32⟩
  | .hbm, ⟨52, _⟩ => ⟨S102000x128, .f32⟩
  | .hbm, ⟨53, _⟩ => ⟨S1x128, .f32⟩
  | .hbm, ⟨54, _⟩ => ⟨S102000x128, .f32⟩
  | .hbm, ⟨55, _⟩ => ⟨S102000x128, .f32⟩
  | .hbm, ⟨56, _⟩ => ⟨S_, .f32⟩
  | .hbm, ⟨57, _⟩ => ⟨S_, .f32⟩
  | .hbm, ⟨58, _⟩ => ⟨S102000x128, .f32⟩
  | .hbm, ⟨59, _⟩ => ⟨S102000x128, .i1⟩
  | .hbm, ⟨60, _⟩ => ⟨S_, .f32⟩
  | .hbm, ⟨61, _⟩ => ⟨S102000x128, .f32⟩
  | .hbm, ⟨62, _⟩ => ⟨S102000x128, .f32⟩
  | .hbm, ⟨63, _⟩ => ⟨S102000x128, .f32⟩
  | .hbm, ⟨64, _⟩ => ⟨S_, .f32⟩
  | .hbm, ⟨65, _⟩ => ⟨S1000000, .f32⟩
  | .hbm, ⟨66, _⟩ => ⟨S_, .f32⟩
  | .hbm, ⟨67, _⟩ => ⟨S102000, .f32⟩
  | .hbm, ⟨68, _⟩ => ⟨S1000000x1, .i32⟩
  | .hbm, ⟨69, _⟩ => ⟨S102000, .f32⟩
  | .hbm, ⟨70, _⟩ => ⟨S_, .i32⟩
  | .hbm, ⟨71, _⟩ => ⟨S1000000, .i32⟩
  | .hbm, ⟨72, _⟩ => ⟨S1000000, .i1⟩
  | .hbm, ⟨73, _⟩ => ⟨S_, .i32⟩
  | .hbm, ⟨74, _⟩ => ⟨S1000000, .i32⟩
  | .hbm, ⟨75, _⟩ => ⟨S1000000, .i32⟩
  | .hbm, ⟨76, _⟩ => ⟨S1000000, .i32⟩
  | .hbm, ⟨77, _⟩ => ⟨S1000000x1, .i32⟩
  | .hbm, ⟨78, _⟩ => ⟨S1000000x128, .f32⟩
  | .hbm, ⟨79, _⟩ => ⟨S_, .f32⟩
  | .hbm, ⟨80, _⟩ => ⟨S102000x128, .f32⟩
  | .hbm, ⟨81, _⟩ => ⟨S1000000x1, .i32⟩
  | .hbm, ⟨82, _⟩ => ⟨S102000x128, .f32⟩
  | .hbm, ⟨83, _⟩ => ⟨S_, .f32⟩
  | .hbm, ⟨84, _⟩ => ⟨S102000, .f32⟩
  | .hbm, ⟨85, _⟩ => ⟨S102000, .f32⟩
  | .hbm, ⟨86, _⟩ => ⟨S102000x1, .f32⟩
  | .hbm, ⟨87, _⟩ => ⟨S102000x128, .f32⟩
  | .hbm, ⟨88, _⟩ => ⟨S102000x128, .f32⟩
  | .hbm, ⟨89, _⟩ => ⟨S102000x128, .f32⟩
  | .hbm, ⟨90, _⟩ => ⟨S102000x128, .f32⟩
  | .hbm, ⟨91, _⟩ => ⟨S102000x128, .f32⟩
  | .hbm, ⟨92, _⟩ => ⟨S1x128, .f32⟩
  | .hbm, ⟨93, _⟩ => ⟨S102000x128, .f32⟩
  | .hbm, ⟨94, _⟩ => ⟨S102000x128, .f32⟩
  | _, _ => ⟨S102000x12, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v36 : Ref sig .tc := ⟨.hbm, 63, rfl⟩
abbrev main_cst_8 : Ref sig .tc := ⟨.hbm, 64, rfl⟩
abbrev main_v37 : Ref sig .tc := ⟨.hbm, 65, rfl⟩
abbrev main_cst_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_10 : Ref sig .tc := ⟨.hbm, 70, rfl⟩
abbrev main_v41 : Ref sig .tc := ⟨.hbm, 71, rfl⟩
abbrev main_v42 : Ref sig .tc := ⟨.hbm, 72, rfl⟩
abbrev main_c_11 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_12 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_13 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]

class Facts₀ : Prop where
  bcast_S_S102000x12 : S_.BroadcastsInDim S102000x12 (![] : Fin 0 → Fin S102000x12.rank)
  bcast_S102000x12_S102000x12x1_0_1 : S102000x12.BroadcastsInDim S102000x12x1 (![0, 1] : Fin 2 → Fin S102000x12x1.rank)
  reducesTo_S102000x12x128_S102000x128_d1 : S102000x12x128.ReducesTo [1] S102000x128
  h_S_ : 0 < S_.numel
  bcast_S102000_S102000x1_0 : S102000.BroadcastsInDim S102000x1 (![0] : Fin 1 → Fin S102000x1.rank)
  bcast_S102000x1_S102000x128_0_1 : S102000x1.BroadcastsInDim S102000x128 (![0, 1] : Fin 2 → Fin S102000x128.rank)
  bcast_S_S1000000 : S_.BroadcastsInDim S1000000 (![] : Fin 0 → Fin S1000000.rank)
  bcast_S_S102000 : S_.BroadcastsInDim S102000 (![] : Fin 0 → Fin S102000.rank)
  bcast_S1000000_S1000000x1_0 : S1000000.BroadcastsInDim S1000000x1 (![0] : Fin 1 → Fin S1000000x1.rank)
  bcast_S_S102000x128 : S_.BroadcastsInDim S102000x128 (![] : Fin 0 → Fin S102000x128.rank)
  bcast_S128_S1x128_1 : S128.BroadcastsInDim S1x128 (![1] : Fin 1 → Fin S1x128.rank)
  bcast_S1x128_S102000x128_0_1 : S1x128.BroadcastsInDim S102000x128 (![0, 1] : Fin 2 → Fin S102000x128.rank)
  gather_S30001x128_S102000x12x1_S102000x12x128_2_0_n_n_0_2_1128_wf : GatherDims.WF S30001x128 S102000x12x1 S102000x12x128 [2] [0] [] [0] [] 2 ![1, 128]
  scatter_S102000_S1000000x1_S1000000_n_0_0_1_wf : ScatterDims.WF S102000 S1000000x1 S1000000 [] [0] [0] 1
  gather_S102000x128_S1000000x1_S1000000x128_1_0_n_n_0_1_1128_wf : GatherDims.WF S102000x128 S1000000x1 S1000000x128 [1] [0] [] [0] [] 1 ![1, 128]
  scatter_S102000x128_S1000000x1_S1000000x128_1_0_0_1_wf : ScatterDims.WF S102000x128 S1000000x1 S1000000x128 [1] [0] [0] 1
  dot_S102000x128_S128x128_S102000x128_1_0_0_1_n_n_wf : DotDims.WF S102000x128 S128x128 S102000x128 [1] [0] [0] [1] [] []

variable [Facts₀]

def gather_S30001x128_S102000x12x1_S102000x12x128_2_0_n_n_0_2_1128 : GatherDims S30001x128 S102000x12x1 S102000x12x128 where
  offsetDims := [2]
  collapsedSliceDims := [0]
  operandBatchingDims := []
  startIndicesBatchingDims := []
  startIndexMap := [0]
  indexVectorDim := 2
  sliceSizes := ![1, 128]
  wf := gather_S30001x128_S102000x12x1_S102000x12x128_2_0_n_n_0_2_1128_wf
def scatter_S102000_S1000000x1_S1000000_n_0_0_1 : ScatterDims S102000 S1000000x1 S1000000 where
  updateWindowDims := []
  insertedWindowDims := [0]
  scatterDimsToOperandDims := [0]
  indexVectorDim := 1
  wf := scatter_S102000_S1000000x1_S1000000_n_0_0_1_wf
def gather_S102000x128_S1000000x1_S1000000x128_1_0_n_n_0_1_1128 : GatherDims S102000x128 S1000000x1 S1000000x128 where
  offsetDims := [1]
  collapsedSliceDims := [0]
  operandBatchingDims := []
  startIndicesBatchingDims := []
  startIndexMap := [0]
  indexVectorDim := 1
  sliceSizes := ![1, 128]
  wf := gather_S102000x128_S1000000x1_S1000000x128_1_0_n_n_0_1_1128_wf
def scatter_S102000x128_S1000000x1_S1000000x128_1_0_0_1 : ScatterDims S102000x128 S1000000x1 S1000000x128 where
  updateWindowDims := [1]
  insertedWindowDims := [0]
  scatterDimsToOperandDims := [0]
  indexVectorDim := 1
  wf := scatter_S102000x128_S1000000x1_S1000000x128_1_0_0_1_wf
def dot_S102000x128_S128x128_S102000x128_1_0_0_1_n_n : DotDims S102000x128 S128x128 S102000x128 where
  lhsContracting := [1]
  rhsContracting := [0]
  lhsNonContracting := [0]
  rhsNonContracting := [1]
  lhsBatch := []
  rhsBatch := []
  wf := dot_S102000x128_S128x128_S102000x128_1_0_0_1_n_n_wf

class Facts : Prop extends Facts₀ where

variable [Facts]
-- ==== Proof.KRun.lean ====
/-
  The kernel program's run with its result named. The program is four segments — a stretch of host operations, the first
  layer's dense transform as a grid of row blocks, a second stretch of host operations, the second layer's transform —
  and the buffer contents at each boundary are a fold from the launch memory: `W1` after the first stretch, `W2` with the
  first transform's arrays at what its write-backs leave, `W3` after the second stretch, `W4` at the end. Every weakly fair
  execution terminates with every unscoped buffer at `W4`; read at the result buffer that names the program's result,
  and at the arguments it gives the launch contents back.
-/
import proofs.«175834_j24756191494706_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the argument arrays as launched. -/
theorem run_valued : θ_run defs (onTc (τ := τ) (main (F := F))) ⟨m, fun _ => 0, ρ⟩ (fun r => ∀ c : Dev nD,
      r.2.mem ((c.tc : Thread nD τ).loc main_v49) = W4 m ρ c (Proc.devRef .tc main_v49)
      ∧      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.KRun

end
-- ==== Proof.KTerms.lean ====
/-
  The host-side stages of the graph network as functions of arrays, in the spelling of the kernel's program:
  `pool` is the mean of a node's word embeddings (a row gather by word id, negative ids wrapped once, the sum over the
  twelve words, the quotient by the node's length); `degDenom` is the in-degree of every node (ones scattered and added at
  the edges' destinations) raised to at least one, as a column; `neigh X` is the mean of `X` over a node's in-neighbours
  (rows of `X` gathered at the edges' sources, negative ids wrapped once, scattered and added at the destinations, divided
  by the column `degDenom` broadcast along the rows); `biasRow` lays a vector out as one row.
  The kernel's program narrows the features to half precision before the gather and widens the gathered rows again:
  on the extended reals both changes of format are the identity, so `neigh` is the same function without them.
-/
import proofs.«175834_j24756191494706_2_alg».proof.Proof.Gen.KernelIdeal

noncomputable section

namespace Cert.KernelIdeal.Sage

open Cert.KernelIdeal Cert.KernelIdeal.Gen Idealize.ShloMosaic Idealize.ShloMosaic.TcCoe

variable {F : FTy → Type} [FloatOps F]

/-- An index array with its negative entries wrapped once by the extent `n`. -/
def wrapEdges (n : BitVec 32) (src : (⟨S1000000, .i32⟩ : BufTy).Contents (Elt F)) : (⟨S1000000, .i32⟩ : BufTy).Contents (Elt F) :=
  select (cmpi .slt src (broadcastInDim S1000000 ![] bcast_S_S1000000 (constantI S_ 32 0#32)))
    (addi src (broadcastInDim S1000000 ![] bcast_S_S1000000 (constantI S_ 32 n))) src

/-- The mean-pooled word embeddings of every node. -/
def pool (wids : (⟨S102000x12, .i32⟩ : BufTy).Contents (Elt F)) (lengths : (⟨S102000, .f32⟩ : BufTy).Contents (Elt F)) (emb : (⟨S30001x128, .f32⟩ : BufTy).Contents (Elt F)) :
    (⟨S102000x128, .f32⟩ : BufTy).Contents (Elt F) :=
  Host.divf
    (Host.reduceAdd
      (Host.gather gather_S30001x128_S102000x12x1_S102000x12x128_2_0_n_n_0_2_1128 emb
        (broadcastInDim S102000x12x1 ![0, 1] bcast_S102000x12_S102000x12x1_0_1
          (select (cmpi .slt wids (broadcastInDim S102000x12 ![] bcast_S_S102000x12 (constantI S_ 32 0#32)))
            (addi wids (broadcastInDim S102000x12 ![] bcast_S_S102000x12 (constantI S_ 32 30001#32))) wids)))
      (constant S_ .f32 0x00000000#32) reducesTo_S102000x12x128_S102000x128_d1 h_S_)
    (broadcastInDim S102000x128 ![0, 1] bcast_S102000x1_S102000x128_0_1
      (broadcastInDim S102000x1 ![0] bcast_S102000_S102000x1_0 lengths))

/-- The in-degree of every node, at least one. -/
def degMax (dst : (⟨S1000000, .i32⟩ : BufTy).Contents (Elt F)) : (⟨S102000, .f32⟩ : BufTy).Contents (Elt F) :=
  maximumf
    (Host.scatterAdd scatter_S102000_S1000000x1_S1000000_n_0_0_1
      (broadcastInDim S102000 ![] bcast_S_S102000 (constant S_ .f32 0x00000000#32))
      (broadcastInDim S1000000x1 ![0] bcast_S1000000_S1000000x1_0 dst)
      (broadcastInDim S1000000 ![] bcast_S_S1000000 (constant S_ .f32 0x3F800000#32)))
    (broadcastInDim S102000 ![] bcast_S_S102000 (constant S_ .f32 0x3F800000#32))

/-- The same as a column. -/
def degDenom (dst : (⟨S1000000, .i32⟩ : BufTy).Contents (Elt F)) : (⟨S102000x1, .f32⟩ : BufTy).Contents (Elt F) :=
  broadcastInDim S102000x1 ![0] bcast_S102000_S102000x1_0 (degMax dst)

/-- The sum of `X`'s rows over every node's in-neighbours, divided by the column `dd`. -/
def neigh (X : (⟨S102000x128, .f32⟩ : BufTy).Contents (Elt F)) (src dst : (⟨S1000000, .i32⟩ : BufTy).Contents (Elt F)) (dd : (⟨S102000x1, .f32⟩ : BufTy).Contents (Elt F)) :
    (⟨S102000x128, .f32⟩ : BufTy).Contents (Elt F) :=
  Host.divf
    (Host.scatterAdd scatter_S102000x128_S1000000x1_S1000000x128_1_0_0_1
      (broadcastInDim S102000x128 ![] bcast_S_S102000x128 (constant S_ .f32 0x00000000#32))
      (broadcastInDim S1000000x1 ![0] bcast_S1000000_S1000000x1_0 dst)
      (extf .f32 (Host.gather gather_S102000x128_S1000000x1_S1000000x128_1_0_n_n_0_1_1128 (truncf .bf16 X bitsLt_bf16_f32)
        (broadcastInDim S1000000x1 ![0] bcast_S1000000_S1000000x1_0 (wrapEdges 102000#32 src))) bitsLt_bf16_f32))
    (broadcastInDim S102000x128 ![0, 1] bcast_S102000x1_S102000x128_0_1 dd)

/-- A vector laid out as one row. -/
def biasRow (b : (⟨S128, .f32⟩ : BufTy).Contents (Elt F)) : (⟨S1x128, .f32⟩ : BufTy).Contents (Elt F) :=
  broadcastInDim S1x128 ![1] bcast_S128_S1x128_1 b

end Cert.KernelIdeal.Sage

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibSageLayer.lean ====
/-
  One mean-aggregating graph-convolution layer on the extended reals, over rank-2 arrays of any extents.

  `affine X H Ws Wn B` is `X Ws + H Wn + B`, the one-row bias `B` added to every row; `leaky` is the leaky rectifier
  `x ↦ x` for `0 ≤ x` and `c · x` otherwise (with `c` the single-precision word nearest one hundredth), written with the
  comparison and the selection the programs use, so that both programs' forms of it are this function by unfolding.
  Row `p` of `affine` depends on row `p` of `X` and of `H` only, which is what lets a block of rows be computed from
  the same block of rows of the operands. The vector unit's form (two matrix products into zero accumulators of operands
  narrowed to half precision, which on the extended reals is no change; the row broadcast to every row) and the host's form
  (two dot products; the row broadcast along the first axis) are both `affine`.
-/
import Idealize.ShloMosaic.PureOps.Ideal.Laws
import Idealize.ShloMosaic.Lib.ValueIdx
import Idealize.ShloMosaic.Lib.ValueLayout
import Idealize.ShloMosaic.Lib.Pipeline.Value
import proofs.«175834_j24756191494706_2_alg».proof.Proof.LibDense

noncomputable section

open scoped BigOperators

namespace Cert.SageLayer

open Idealize.ShloMosaic Idealize.ShloMosaic.ValueIdx Cert.Dense

/-- The leaky rectifier on the extended reals: `x` where `0 ≤ x`, else the slope word times `x`. -/
def leaky (x : EReal) : EReal :=
  Scalar.select (FloatOps.cmpf (F := Ideal) (φ := .f32) .oge x (Ideal.ofBits .f32 0x00000000#32)) x
    ((Ideal.ofBits .f32 0x3C23D70A#32) * x)

/-- `X Ws + H Wn + B`, the one-row array `B` added to every row. -/
def affine {M K N : ℕ} (X H : Mat M K) (Ws Wn : Mat K N) (B : Mat 1 N) : Mat M N :=
  fun i => mm X Ws i + mm H Wn i + B (ix2 (0 : Fin 1) (c1 i))

theorem affine_apply {M K N : ℕ} (X H : Mat M K) (Ws Wn : Mat K N) (B : Mat 1 N) (p : Fin M) (q : Fin N) :
    affine X H Ws Wn B (ix2 p q)
      = (∑ k : Fin K, X (ix2 p k) * Ws (ix2 k q)) + (∑ k : Fin K, H (ix2 p k) * Wn (ix2 k q)) + B (ix2 (0 : Fin 1) q) := rfl

/-- A row of the layer's affine part depends on the same row of the two left operands only. -/
theorem affine_rows {M M' K N : ℕ} (X H : Mat M K) (X' H' : Mat M' K) (Ws Wn : Mat K N) (B : Mat 1 N)
    (p : Fin M) (p' : Fin M') (hX : ∀ k, X' (ix2 p' k) = X (ix2 p k)) (hH : ∀ k, H' (ix2 p' k) = H (ix2 p k)) (q : Fin N) :
    affine X' H' Ws Wn B (ix2 p' q) = affine X H Ws Wn B (ix2 p q) := by
  simp only [affine_apply, hX, hH]

/-- A block of `bs` rows of the layer's affine part, the `r`-th, computed from the same blocks of rows of the two left
    operands (and the same right operands and bias), is that block of rows of the whole. -/
theorem affine_block {M bs K N : ℕ} (X H : Mat M K) (x0 x1 : Mat bs K) (Ws Wn x2 x3 : Mat K N) (B x4 : Mat 1 N) (r : ℕ)
    (hr : ∀ p : Fin bs, r * bs + p.val < M)
    (h0 : ∀ (p : Fin bs) (k : Fin K), x0 (ix2 p k) = X (ix2 ⟨r * bs + p.val, hr p⟩ k))
    (h1 : ∀ (p : Fin bs) (k : Fin K), x1 (ix2 p k) = H (ix2 ⟨r * bs + p.val, hr p⟩ k))
    (h2 : x2 = Ws) (h3 : x3 = Wn) (h4 : x4 = B)
    (j : (⟨2, ![bs, N]⟩ : Shape).Idx) (i : (⟨2, ![M, N]⟩ : Shape).Idx)
    (hi0 : (i 0).val = r * bs + (j 0).val) (hi1 : (i 1).val = (j 1).val) :
    affine x0 x1 x2 x3 x4 j = affine X H Ws Wn B i := by
  subst h2 h3 h4
  obtain ⟨p, q, rfl⟩ : ∃ (p : Fin bs) (q : Fin N), j = ix2 p q := ⟨j 0, j 1, eq_ix2 j⟩
  have hi : i = ix2 (⟨r * bs + p.val, hr p⟩ : Fin M) q := by
    funext a; apply Fin.ext
    match a with
    | ⟨0, _⟩ => exact hi0
    | ⟨1, _⟩ => exact hi1
  rw [hi]
  exact affine_rows X H x0 x1 x2 x3 x4 _ p (h0 p) (h1 p) q

/-- The vector unit's form of the affine part. -/
theorem vecAffine {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (X H : FVec Ideal ⟨2, ![M, K]⟩ .f32) (Ws Wn : FVec Ideal ⟨2, ![K, N]⟩ .f32) (B : FVec Ideal ⟨2, ![1, N]⟩ .f32)
    (hlt : FTy.bf16.bits < FTy.f32.bits) (hb : (⟨2, ![1, N]⟩ : Shape).Broadcasts ⟨2, ![M, N]⟩) :
    addf (addf (matmul (F := Ideal) D none (truncf .bf16 X hlt) (truncf .bf16 Ws hlt) (constant ⟨2, ![M, N]⟩ .f32 0x00000000#32))
        (matmul (F := Ideal) D none (truncf .bf16 H hlt) (truncf .bf16 Wn hlt) (constant ⟨2, ![M, N]⟩ .f32 0x00000000#32)))
      (broadcastTo ⟨2, ![M, N]⟩ B hb) = affine X H Ws Wn B := by
  rw [matmul_zero_eq_mm D h1 h2 h3 h4 h5 h6, matmul_zero_eq_mm D h1 h2 h3 h4 h5 h6]
  funext i
  obtain ⟨p, q, rfl⟩ : ∃ (p : Fin M) (q : Fin N), i = ix2 p q := ⟨i 0, i 1, eq_ix2 i⟩
  show mm (truncf .bf16 X hlt) (truncf .bf16 Ws hlt) (ix2 p q) + mm (truncf .bf16 H hlt) (truncf .bf16 Wn hlt) (ix2 p q)
      + broadcastTo ⟨2, ![M, N]⟩ B hb (ix2 p q) = _
  rw [broadcastTo_1b_ab_apply]
  rfl

/-- The host's form of the affine part. -/
theorem hostAffine {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (X H : FVec Ideal ⟨2, ![M, K]⟩ .f32) (Ws Wn : FVec Ideal ⟨2, ![K, N]⟩ .f32) (B : FVec Ideal ⟨2, ![1, N]⟩ .f32)
    (hb : (⟨2, ![1, N]⟩ : Shape).BroadcastsInDim ⟨2, ![M, N]⟩ ![0, 1]) :
    addf (addf (Host.dotGeneral (F := Ideal) D none X Ws) (Host.dotGeneral (F := Ideal) D none H Wn))
      (broadcastInDim ⟨2, ![M, N]⟩ ![0, 1] hb B) = affine X H Ws Wn B := by
  rw [hostDot_eq_mm D h1 h2 h3 h4 h5 h6, hostDot_eq_mm D h1 h2 h3 h4 h5 h6]
  funext i
  obtain ⟨p, q, rfl⟩ : ∃ (p : Fin M) (q : Fin N), i = ix2 p q := ⟨i 0, i 1, eq_ix2 i⟩
  show mm X Ws (ix2 p q) + mm H Wn (ix2 p q) + broadcastInDim ⟨2, ![M, N]⟩ ![0, 1] hb B (ix2 p q) = _
  rw [broadcastInDim_apply ![0, 1] hb B (ix2 p q) (ix2 (0 : Fin 1) q) (fun a => by
        match a with
        | ⟨0, _⟩ => rfl
        | ⟨1, _⟩ =>
          show q.val = if N = 1 then 0 else q.val
          split
          · have := q.isLt; omega
          · rfl)]
  rfl

/-- The vector unit's form of the leaky rectifier: a comparison with a zero splat selecting between the value and the
    slope splat times it. -/
theorem vecLeaky {S : Shape} (Y : FVec Ideal S .f32) :
    select (cmpf .oge Y (broadcast S (Scalar.ofBits (F := Ideal) .f32 0x00000000#32))) Y
        (mulf (broadcast S (Scalar.ofBits (F := Ideal) .f32 0x3C23D70A#32)) Y)
      = fun i => leaky (Y i) := rfl

/-- The host's form: the zero and the slope are scalar constants broadcast to the array's shape. -/
theorem hostLeaky {S : Shape} (Y : FVec Ideal S .f32) (h0 : (⟨0, ![]⟩ : Shape).BroadcastsInDim S ![]) :
    select (cmpf .oge Y (broadcastInDim S ![] h0 (constant (F := Ideal) ⟨0, ![]⟩ .f32 0x00000000#32))) Y
        (mulf (broadcastInDim S ![] h0 (id (constant (F := Ideal) ⟨0, ![]⟩ .f32 0x3C23D70A#32))) Y)
      = fun i => leaky (Y i) := by
  funext i
  show Scalar.select (FloatOps.cmpf (F := Ideal) .oge (Y i)
      (broadcastInDim S ![] h0 (constant (F := Ideal) ⟨0, ![]⟩ .f32 0x00000000#32) i)) (Y i)
      (broadcastInDim S ![] h0 (id (constant (F := Ideal) ⟨0, ![]⟩ .f32 0x3C23D70A#32)) i * Y i) = _
  rw [broadcastInDim_apply ![] h0 _ i ix0 (fun a => a.elim0), broadcastInDim_apply ![] h0 _ i ix0 (fun a => a.elim0)]
  rfl

end Cert.SageLayer

end
-- ==== Proof.Blocks0.lean ====
/-
  The first layer's dense transform as one function of whole arrays. The transform runs over seventeen blocks of six thousand
  rows: at block `t` it reads rows `6000 t … 6000 t + 5999` of the features and of the neighbour means, both weight
  matrices and the bias row whole, and writes the same rows of the result: `X Ws + H Wn + B` through the leaky rectifier, a row of which depends on
  the same row of `X` and `H` only. The blocks cover every row, so the result array ends holding `G` of the arrays the
  transform was entered with.
-/
import proofs.«175834_j24756191494706_2_alg».proof.Proof.Gen.KernelIdeal.Frame
import proofs.«175834_j24756191494706_2_alg».proof.Proof.LibSageLayer
import Idealize.ShloMosaic.Lib.Pipeline.Value

set_option maxRecDepth 16384

noncomputable section

namespace Cert.KernelIdeal.Layer0

open Cert.KernelIdeal Cert.KernelIdeal.Gen Idealize.ShloMosaic Idealize.ShloMosaic.TcCoe Idealize.ShloMosaic.ValueIdx
open Cert.Dense Cert.SageLayer

variable (V : (c : Dev nD) → (b : Ref sig .tc) → Buf (Elt Ideal) ((c : Thread nD τ).loc b))

theorem hz : (![0, 0] : Fin 2 → Nat) = fun _ => 0 := funext fun a => by fin_cases a <;> rfl

/-- The layer on whole arrays. -/
def G (X H : Mat 102000 128) (Ws Wn : Mat 128 128) (B : Mat 1 128) : Mat 102000 128 :=
  fun i => leaky (affine X H Ws Wn B i)

/-- The body's stored value is the layer on the blocks it loaded. -/
theorem pay_eq (x0 x1 : Vec Ideal S6000x128 .f32) (x2 x3 : Vec Ideal S128x128 .f32) (x4 : Vec Ideal S1x128 .f32) :
    k0_pay1 x0 x1 x2 x3 x4 = fun i => leaky (affine x0 x1 x2 x3 x4 i) := by
  unfold k0_pay1
  dsimp only
  rw [shapeCast_self, shapeCast_self, shapeCast_self]
  rw [vecAffine dot_S6000x128_S128x128_S6000x128_1_0_0_1_n_n rfl rfl rfl rfl rfl rfl x0 x1 x2 x3 x4]
  exact vecLeaky _

/-- The index maps over the grid: the row-block windows sit at block `t`, the whole-array windows at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `G` of the arrays as the transform finds them. -/
theorem flushed_eq (c : Dev nD) (t : Fin cfg0.N) :
    (dat0 V c).flushed 5 t = ((cfg0.win 5).blk t).view.read (Elt Ideal) (G (V c main_v10) (V c main_v31) (V c main_arg5) (V c main_arg6) (V c main_v32)) := by
  show (cfg0.win 5).cut (grid0.coords t) ((dat0 V c).after 5 t) = _
  rw [after0_5]
  unfold out0_5
  rw [View.canon_unit_zero hz]
  simp only [View.ld_unit_zero (S := S6000x128) hz, View.ld_unit_zero (S := S128x128) hz, View.ld_unit_zero (S := S1x128) hz]
  rw [pay_eq]
  obtain ⟨e00, e01, e10, e11, e20, e21, e30, e31, e40, e41, e50, e51⟩ := idx_facts t
  have ht : t.val < 17 := by have h := t.isLt; have hN : cfg0.N = 17 := N_0; omega
  have hw2 : iblk0 V c 2 t = V c main_arg5 := by
    funext y
    show V c main_arg5 (((cfg0.win 2).blk t).view.emb y) = V c main_arg5 y
    refine congrArg (V c main_arg5) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have hw3 : iblk0 V c 3 t = V c main_arg6 := by
    funext y
    show V c main_arg6 (((cfg0.win 3).blk t).view.emb y) = V c main_arg6 y
    refine congrArg (V c main_arg6) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have hw4 : iblk0 V c 4 t = V c main_v32 := by
    funext y
    show V c main_v32 (((cfg0.win 4).blk t).view.emb y) = V c main_v32 y
    refine congrArg (V c main_v32) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  funext j
  show leaky (affine (iblk0 V c 0 t) (iblk0 V c 1 t) (iblk0 V c 2 t) (iblk0 V c 3 t) (iblk0 V c 4 t) j)
    = leaky (affine (V c main_v10) (V c main_v31) (V c main_arg5) (V c main_arg6) (V c main_v32) (((cfg0.win 5).blk t).view.emb j))
  refine congrArg leaky (affine_block (V c main_v10) (V c main_v31) (iblk0 V c 0 t) (iblk0 V c 1 t) (V c main_arg5) (V c main_arg6)
    (iblk0 V c 2 t) (iblk0 V c 3 t) (V c main_v32) (iblk0 V c 4 t) t.val (fun p => by have := p.isLt; omega)
    (fun p k => by
      show V c main_v10 (((cfg0.win 0).blk t).view.emb (ix2 p k)) = _
      refine congrArg (V c main_v10) (funext fun a => Fin.ext ?_)
      match a with
      | ⟨0, _⟩ => show win0_0.index t (0 : Fin 2) * 6000 + 1 * p.val = t.val * 6000 + p.val; omega
      | ⟨1, _⟩ => show win0_0.index t (1 : Fin 2) * 128 + 1 * k.val = k.val; omega)
    (fun p k => by
      show V c main_v31 (((cfg0.win 1).blk t).view.emb (ix2 p k)) = _
      refine congrArg (V c main_v31) (funext fun a => Fin.ext ?_)
      match a with
      | ⟨0, _⟩ => show win0_1.index t (0 : Fin 2) * 6000 + 1 * p.val = t.val * 6000 + p.val; omega
      | ⟨1, _⟩ => show win0_1.index t (1 : Fin 2) * 128 + 1 * k.val = k.val; omega)
    hw2 hw3 hw4 j (((cfg0.win 5).blk t).view.emb j) ?_ ?_)
  · show win0_5.index t (0 : Fin 2) * 6000 + 1 * (j 0).val = t.val * 6000 + (j 0).val; omega
  · show win0_5.index t (1 : Fin 2) * 128 + 1 * (j 1).val = (j 1).val; omega

/-- An index of the array is in point `t`'s block iff each coordinate is in the block's range on its axis. -/
theorem mem_blk (t : Fin cfg0.N) (i : S102000x128.Idx) :
    i ∈ ((cfg0.win 5).blk t).view.set ↔ ∀ a : Fin 2, win0_5.index t a * S6000x128.size a ≤ (i a).val ∧ (i a).val < win0_5.index t a * S6000x128.size a + S6000x128.size a := by
  show i ∈ ((View.whole main_v33).slice (win0_5.rect t)).set ↔ _
  rw [View.set_slice_whole, Rect.mem_set_unit]
  exact Iff.rfl

/-- Every index of the result array is in the block of the point its row falls in. -/
theorem cover (i : S102000x128.Idx) :
    ∃ t : Fin cfg0.N, (cfg0.win 5).flush t = true ∧ i ∈ ((cfg0.win 5).blk t).view.set := by
  have hi0 : (i 0).val < 102000 := (i 0).isLt
  have hi1 : (i 1).val < 128 := (i 1).isLt
  have hN : cfg0.N = 17 := N_0
  have ht : (i 0).val / 6000 < cfg0.N := by rw [hN]; omega
  obtain ⟨e00, e01, e10, e11, e20, e21, e30, e31, e40, e41, e50, e51⟩ := idx_facts ⟨(i 0).val / 6000, ht⟩
  refine ⟨⟨(i 0).val / 6000, ht⟩, flush0_5 _, ?_⟩
  rw [mem_blk]
  intro a
  match a with
  | ⟨0, _⟩ =>
    show win0_5.index ⟨(i 0).val / 6000, ht⟩ (0 : Fin 2) * 6000 ≤ (i 0).val ∧ (i 0).val < win0_5.index ⟨(i 0).val / 6000, ht⟩ (0 : Fin 2) * 6000 + 6000
    rw [e50]
    show (i 0).val / 6000 * 6000 ≤ (i 0).val ∧ (i 0).val < (i 0).val / 6000 * 6000 + 6000
    omega
  | ⟨1, _⟩ =>
    show win0_5.index ⟨(i 0).val / 6000, ht⟩ (1 : Fin 2) * 128 ≤ (i 1).val ∧ (i 1).val < win0_5.index ⟨(i 0).val / 6000, ht⟩ (1 : Fin 2) * 128 + 128
    omega

/-- The result array after the transform is `G` of the arrays it was entered with. -/
theorem final (c : Dev nD) : (dat0 V c).arrAt 5 cfg0.N = G (V c main_v10) (V c main_v31) (V c main_arg5) (V c main_arg6) (V c main_v32) :=
  (dat0 V c).arrAt_eq_of_cover 5 _ (fun t _ => flushed_eq V c t) cover

end Cert.KernelIdeal.Layer0

end
-- ==== Proof.Blocks1.lean ====
/-
  The second layer's dense transform as one function of whole arrays. The transform runs over seventeen blocks of six thousand
  rows: at block `t` it reads rows `6000 t … 6000 t + 5999` of the features and of the neighbour means, both weight
  matrices and the bias row whole, and writes the same rows of the result: `X Ws + H Wn + B`, a row of which depends on
  the same row of `X` and `H` only. The blocks cover every row, so the result array ends holding `G` of the arrays the
  transform was entered with.
-/
import proofs.«175834_j24756191494706_2_alg».proof.Proof.Gen.KernelIdeal.Frame
import proofs.«175834_j24756191494706_2_alg».proof.Proof.LibSageLayer
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.ShloMosaic.ValueIdx
open Cert.Dense Cert.SageLayer

variable (V : (c : Dev nD) → (b : Ref sig .tc) → Buf (Elt Ideal) ((c : Thread nD τ).loc b))

theorem hz : (![0, 0] : Fin 2 → Nat) = fun _ => 0 := funext fun a => by fin_cases a <;> rfl

/-- The layer on whole arrays. -/
def G (X H : Mat 102000 128) (Ws Wn : Mat 128 128) (B : Mat 1 128) : Mat 102000 128 :=
  fun i => affine X H Ws Wn B i

/-- The body's stored value is the layer on the blocks it loaded. -/
theorem pay_eq (x0 x1 : Vec Ideal S6000x128 .f32) (x2 x3 : Vec Ideal S128x128 .f32) (x4 : Vec Ideal S1x128 .f32) :
    k1_pay1 x0 x1 x2 x3 x4 = fun i => affine x0 x1 x2 x3 x4 i := by
  unfold k1_pay1
  dsimp only
  rw [shapeCast_self, shapeCast_self, shapeCast_self]
  rw [vecAffine dot_S6000x128_S128x128_S6000x128_1_0_0_1_n_n rfl rfl rfl rfl rfl rfl x0 x1 x2 x3 x4]

/-- The index maps over the grid: the row-block windows sit at block `t`, the whole-array windows at block zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `G` of the arrays as the transform finds them. -/
theorem flushed_eq (c : Dev nD) (t : Fin cfg1.N) :
    (dat1 V c).flushed 5 t = ((cfg1.win 5).blk t).view.read (Elt Ideal) (G (V c main_v33) (V c main_v47) (V c main_arg8) (V c main_arg9) (V c main_v48)) := by
  show (cfg1.win 5).cut (grid1.coords t) ((dat1 V c).after 5 t) = _
  rw [after1_5]
  unfold out1_5
  rw [View.canon_unit_zero hz]
  simp only [View.ld_unit_zero (S := S6000x128) hz, View.ld_unit_zero (S := S128x128) hz, View.ld_unit_zero (S := S1x128) hz]
  rw [pay_eq]
  obtain ⟨e00, e01, e10, e11, e20, e21, e30, e31, e40, e41, e50, e51⟩ := idx_facts t
  have ht : t.val < 17 := by have h := t.isLt; have hN : cfg1.N = 17 := N_1; omega
  have hw2 : iblk1 V c 2 t = V c main_arg8 := by
    funext y
    show V c main_arg8 (((cfg1.win 2).blk t).view.emb y) = V c main_arg8 y
    refine congrArg (V c main_arg8) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have hw3 : iblk1 V c 3 t = V c main_arg9 := by
    funext y
    show V c main_arg9 (((cfg1.win 3).blk t).view.emb y) = V c main_arg9 y
    refine congrArg (V c main_arg9) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have hw4 : iblk1 V c 4 t = V c main_v48 := by
    funext y
    show V c main_v48 (((cfg1.win 4).blk t).view.emb y) = V c main_v48 y
    refine congrArg (V c main_v48) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  funext j
  show affine (iblk1 V c 0 t) (iblk1 V c 1 t) (iblk1 V c 2 t) (iblk1 V c 3 t) (iblk1 V c 4 t) j
    = affine (V c main_v33) (V c main_v47) (V c main_arg8) (V c main_arg9) (V c main_v48) (((cfg1.win 5).blk t).view.emb j)
  refine (affine_block (V c main_v33) (V c main_v47) (iblk1 V c 0 t) (iblk1 V c 1 t) (V c main_arg8) (V c main_arg9)
    (iblk1 V c 2 t) (iblk1 V c 3 t) (V c main_v48) (iblk1 V c 4 t) t.val (fun p => by have := p.isLt; omega)
    (fun p k => by
      show V c main_v33 (((cfg1.win 0).blk t).view.emb (ix2 p k)) = _
      refine congrArg (V c main_v33) (funext fun a => Fin.ext ?_)
      match a with
      | ⟨0, _⟩ => show win1_0.index t (0 : Fin 2) * 6000 + 1 * p.val = t.val * 6000 + p.val; omega
      | ⟨1, _⟩ => show win1_0.index t (1 : Fin 2) * 128 + 1 * k.val = k.val; omega)
    (fun p k => by
      show V c main_v47 (((cfg1.win 1).blk t).view.emb (ix2 p k)) = _
      refine congrArg (V c main_v47) (funext fun a => Fin.ext ?_)
      match a with
      | ⟨0, _⟩ => show win1_1.index t (0 : Fin 2) * 6000 + 1 * p.val = t.val * 6000 + p.val; omega
      | ⟨1, _⟩ => show win1_1.index t (1 : Fin 2) * 128 + 1 * k.val = k.val; omega)
    hw2 hw3 hw4 j (((cfg1.win 5).blk t).view.emb j) ?_ ?_)
  · show win1_5.index t (0 : Fin 2) * 6000 + 1 * (j 0).val = t.val * 6000 + (j 0).val; omega
  · show win1_5.index t (1 : Fin 2) * 128 + 1 * (j 1).val = (j 1).val; omega

/-- An index of the array is in point `t`'s block iff each coordinate is in the block's range on its axis. -/
theorem mem_blk (t : Fin cfg1.N) (i : S102000x128.Idx) :
    i ∈ ((cfg1.win 5).blk t).view.set ↔ ∀ a : Fin 2, win1_5.index t a * S6000x128.size a ≤ (i a).val ∧ (i a).val < win1_5.index t a * S6000x128.size a + S6000x128.size a := by
  show i ∈ ((View.whole main_v49).slice (win1_5.rect t)).set ↔ _
  rw [View.set_slice_whole, Rect.mem_set_unit]
  exact Iff.rfl

/-- Every index of the result array is in the block of the point its row falls in. -/
theorem cover (i : S102000x128.Idx) :
    ∃ t : Fin cfg1.N, (cfg1.win 5).flush t = true ∧ i ∈ ((cfg1.win 5).blk t).view.set := by
  have hi0 : (i 0).val < 102000 := (i 0).isLt
  have hi1 : (i 1).val < 128 := (i 1).isLt
  have hN : cfg1.N = 17 := N_1
  have ht : (i 0).val / 6000 < cfg1.N := by rw [hN]; omega
  obtain ⟨e00, e01, e10, e11, e20, e21, e30, e31, e40, e41, e50, e51⟩ := idx_facts ⟨(i 0).val / 6000, ht⟩
  refine ⟨⟨(i 0).val / 6000, ht⟩, flush1_5 _, ?_⟩
  rw [mem_blk]
  intro a
  match a with
  | ⟨0, _⟩ =>
    show win1_5.index ⟨(i 0).val / 6000, ht⟩ (0 : Fin 2) * 6000 ≤ (i 0).val ∧ (i 0).val < win1_5.index ⟨(i 0).val / 6000, ht⟩ (0 : Fin 2) * 6000 + 6000
    rw [e50]
    show (i 0).val / 6000 * 6000 ≤ (i 0).val ∧ (i 0).val < (i 0).val / 6000 * 6000 + 6000
    omega
  | ⟨1, _⟩ =>
    show win1_5.index ⟨(i 0).val / 6000, ht⟩ (1 : Fin 2) * 128 ≤ (i 1).val ∧ (i 1).val < win1_5.index ⟨(i 0).val / 6000, ht⟩ (1 : Fin 2) * 128 + 128
    omega

/-- The result array after the transform is `G` of the arrays it was entered with. -/
theorem final (c : Dev nD) : (dat1 V c).arrAt 5 cfg1.N = G (V c main_v33) (V c main_v47) (V c main_arg8) (V c main_arg9) (V c main_v48) :=
  (dat1 V c).arrAt_eq_of_cover 5 _ (fun t _ => flushed_eq V c t) cover

end Cert.KernelIdeal.Layer1

end
-- ==== Proof.KValue.lean ====
/-
  The kernel program's result as a function of its arguments. The result buffer at the last boundary is the second
  layer's transform of the arrays its region was entered with; those are the first layer's result (untouched by the second
  stretch of host operations), its neighbour mean (the second stretch's work), two argument matrices and the second bias
  laid out as a row; the first layer's region was entered with the pooled embeddings, their neighbour mean, two argument
  matrices and the first bias row (the first stretch's work). Each stretch is read as the fold of its operations over
  the contents it starts from; the in-degree column is computed once, in the first stretch, and read again in the second.
-/
import proofs.«175834_j24756191494706_2_alg».proof.Proof.KRun
import proofs.«175834_j24756191494706_2_alg».proof.Proof.KTerms
import proofs.«175834_j24756191494706_2_alg».proof.Proof.Blocks0
import proofs.«175834_j24756191494706_2_alg».proof.Proof.Blocks1
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Cert.Dense Cert.SageLayer

/-- The kernel program's result as a function of its arguments: two layers over the pooled embeddings, the first
    rectified, the in-degree column shared. -/
def out (wids : (⟨S102000x12, .i32⟩ : BufTy).Contents (Elt Ideal)) (lengths : (⟨S102000, .f32⟩ : BufTy).Contents (Elt Ideal))
    (src dst : (⟨S1000000, .i32⟩ : BufTy).Contents (Elt Ideal)) (emb : (⟨S30001x128, .f32⟩ : BufTy).Contents (Elt Ideal))
    (W1s W1n : (⟨S128x128, .f32⟩ : BufTy).Contents (Elt Ideal)) (b1 : (⟨S128, .f32⟩ : BufTy).Contents (Elt Ideal))
    (W2s W2n : (⟨S128x128, .f32⟩ : BufTy).Contents (Elt Ideal)) (b2 : (⟨S128, .f32⟩ : BufTy).Contents (Elt Ideal)) :
    (⟨S102000x128, .f32⟩ : BufTy).Contents (Elt Ideal) :=
  let h := Sage.pool (F := Ideal) wids lengths emb
  let dd := Sage.degDenom (F := Ideal) dst
  let l := Layer0.G h (Sage.neigh (F := Ideal) h src dst dd) W1s W1n (Sage.biasRow (F := Ideal) b1)
  Layer1.G l (Sage.neigh (F := Ideal) l src dst dd) W2s W2n (Sage.biasRow (F := Ideal) b2)

section Stretches

variable (W : Valuation τ sig (Elt Ideal))

attribute [local irreducible] Host.gather Host.scatterAdd Host.reduceAdd

/-! The first stretch, from any contents. -/

theorem s0_v10 : after hostOps0 W (Proc.devRef .tc main_v10) = Sage.pool (F := Ideal) (W (Proc.devRef .tc main_arg0)) (W (Proc.devRef .tc main_arg1)) (W (Proc.devRef .tc main_arg4)) := by
  dsimp only [hostOps0]; after_results_simp; rfl
theorem s0_v17 : after hostOps0 W (Proc.devRef .tc main_v17) = Sage.degDenom (F := Ideal) (W (Proc.devRef .tc main_arg3)) := by
  dsimp only [hostOps0]; after_results_simp; rfl
theorem s0_v31 : after hostOps0 W (Proc.devRef .tc main_v31)
    = Sage.neigh (F := Ideal) (Sage.pool (F := Ideal) (W (Proc.devRef .tc main_arg0)) (W (Proc.devRef .tc main_arg1)) (W (Proc.devRef .tc main_arg4)))
        (W (Proc.devRef .tc main_arg2)) (W (Proc.devRef .tc main_arg3)) (Sage.degDenom (F := Ideal) (W (Proc.devRef .tc main_arg3))) := by
  dsimp only [hostOps0]; after_results_simp; rfl
theorem s0_v32 : after hostOps0 W (Proc.devRef .tc main_v32) = Sage.biasRow (F := Ideal) (W (Proc.devRef .tc main_arg7)) := by
  dsimp only [hostOps0]; after_results_simp; rfl
theorem s0_main_arg2 : after hostOps0 W (Proc.devRef .tc main_arg2) = W (Proc.devRef .tc main_arg2) := by
  dsimp only [hostOps0]; after_results_simp
theorem s0_main_arg3 : after hostOps0 W (Proc.devRef .tc main_arg3) = W (Proc.devRef .tc main_arg3) := by
  dsimp only [hostOps0]; after_results_simp
theorem s0_main_arg5 : after hostOps0 W (Proc.devRef .tc main_arg5) = W (Proc.devRef .tc main_arg5) := by
  dsimp only [hostOps0]; after_results_simp
theorem s0_main_arg6 : after hostOps0 W (Proc.devRef .tc main_arg6) = W (Proc.devRef .tc main_arg6) := by
  dsimp only [hostOps0]; after_results_simp
theorem s0_main_arg8 : after hostOps0 W (Proc.devRef .tc main_arg8) = W (Proc.devRef .tc main_arg8) := by
  dsimp only [hostOps0]; after_results_simp
theorem s0_main_arg9 : after hostOps0 W (Proc.devRef .tc main_arg9) = W (Proc.devRef .tc main_arg9) := by
  dsimp only [hostOps0]; after_results_simp
theorem s0_main_arg10 : after hostOps0 W (Proc.devRef .tc main_arg10) = W (Proc.devRef .tc main_arg10) := by
  dsimp only [hostOps0]; after_results_simp

/-! The second stretch, from any contents. -/

theorem s1_v47 : after hostOps1 W (Proc.devRef .tc main_v47)
    = Sage.neigh (F := Ideal) (W (Proc.devRef .tc main_v33)) (W (Proc.devRef .tc main_arg2)) (W (Proc.devRef .tc main_arg3)) (W (Proc.devRef .tc main_v17)) := by
  dsimp only [hostOps1]; after_results_simp; rfl
theorem s1_v48 : after hostOps1 W (Proc.devRef .tc main_v48) = Sage.biasRow (F := Ideal) (W (Proc.devRef .tc main_arg10)) := by
  dsimp only [hostOps1]; after_results_simp; rfl
theorem s1_main_v33 : after hostOps1 W (Proc.devRef .tc main_v33) = W (Proc.devRef .tc main_v33) := by
  dsimp only [hostOps1]; after_results_simp
theorem s1_main_arg8 : after hostOps1 W (Proc.devRef .tc main_arg8) = W (Proc.devRef .tc main_arg8) := by
  dsimp only [hostOps1]; after_results_simp
theorem s1_main_arg9 : after hostOps1 W (Proc.devRef .tc main_arg9) = W (Proc.devRef .tc main_arg9) := by
  dsimp only [hostOps1]; after_results_simp

end Stretches

variable (m : (ℓ : Loc nD τ sig) → Buf (Elt Ideal) ℓ) (ρ : Dev nD → PrngReg) (c : Dev nD)

/-- The contents the first region is entered with, at the buffers it and the second stretch read. -/
theorem w1_v10 : W1 m ρ c (Proc.devRef .tc main_v10) = Sage.pool (F := Ideal) (m ((c : Thread nD τ).loc main_arg0)) (m ((c : Thread nD τ).loc main_arg1)) (m ((c : Thread nD τ).loc main_arg4)) := s0_v10 _
theorem w1_v17 : W1 m ρ c (Proc.devRef .tc main_v17) = Sage.degDenom (F := Ideal) (m ((c : Thread nD τ).loc main_arg3)) := s0_v17 _
theorem w1_v31 : W1 m ρ c (Proc.devRef .tc main_v31)
    = Sage.neigh (F := Ideal) (Sage.pool (F := Ideal) (m ((c : Thread nD τ).loc main_arg0)) (m ((c : Thread nD τ).loc main_arg1)) (m ((c : Thread nD τ).loc main_arg4)))
        (m ((c : Thread nD τ).loc main_arg2)) (m ((c : Thread nD τ).loc main_arg3)) (Sage.degDenom (F := Ideal) (m ((c : Thread nD τ).loc main_arg3))) := s0_v31 _
theorem w1_v32 : W1 m ρ c (Proc.devRef .tc main_v32) = Sage.biasRow (F := Ideal) (m ((c : Thread nD τ).loc main_arg7)) := s0_v32 _
theorem w1_main_arg2 : W1 m ρ c (Proc.devRef .tc main_arg2) = (m ((c : Thread nD τ).loc main_arg2)) := s0_main_arg2 _
theorem w1_main_arg3 : W1 m ρ c (Proc.devRef .tc main_arg3) = (m ((c : Thread nD τ).loc main_arg3)) := s0_main_arg3 _
theorem w1_main_arg5 : W1 m ρ c (Proc.devRef .tc main_arg5) = (m ((c : Thread nD τ).loc main_arg5)) := s0_main_arg5 _
theorem w1_main_arg6 : W1 m ρ c (Proc.devRef .tc main_arg6) = (m ((c : Thread nD τ).loc main_arg6)) := s0_main_arg6 _
theorem w1_main_arg8 : W1 m ρ c (Proc.devRef .tc main_arg8) = (m ((c : Thread nD τ).loc main_arg8)) := s0_main_arg8 _
theorem w1_main_arg9 : W1 m ρ c (Proc.devRef .tc main_arg9) = (m ((c : Thread nD τ).loc main_arg9)) := s0_main_arg9 _
theorem w1_main_arg10 : W1 m ρ c (Proc.devRef .tc main_arg10) = (m ((c : Thread nD τ).loc main_arg10)) := s0_main_arg10 _

/-- The first layer's result array after its region. -/
theorem w2_v33 : W2 m ρ c (Proc.devRef .tc main_v33)
    = Layer0.G (W1 m ρ c (Proc.devRef .tc main_v10)) (W1 m ρ c (Proc.devRef .tc main_v31)) (W1 m ρ c (Proc.devRef .tc main_arg5)) (W1 m ρ c (Proc.devRef .tc main_arg6)) (W1 m ρ c (Proc.devRef .tc main_v32)) :=
  (W2_arr m ρ c 5).trans (Layer0.final (V1 m ρ) c)

theorem w2_main_arg2 : W2 m ρ c (Proc.devRef .tc main_arg2) = W1 m ρ c (Proc.devRef .tc main_arg2) := W2_of_ne m ρ c main_arg2 (by decide)
theorem w2_main_arg3 : W2 m ρ c (Proc.devRef .tc main_arg3) = W1 m ρ c (Proc.devRef .tc main_arg3) := W2_of_ne m ρ c main_arg3 (by decide)
theorem w2_main_v17 : W2 m ρ c (Proc.devRef .tc main_v17) = W1 m ρ c (Proc.devRef .tc main_v17) := W2_of_ne m ρ c main_v17 (by decide)
theorem w2_main_arg8 : W2 m ρ c (Proc.devRef .tc main_arg8) = W1 m ρ c (Proc.devRef .tc main_arg8) := W2_of_ne m ρ c main_arg8 (by decide)
theorem w2_main_arg9 : W2 m ρ c (Proc.devRef .tc main_arg9) = W1 m ρ c (Proc.devRef .tc main_arg9) := W2_of_ne m ρ c main_arg9 (by decide)
theorem w2_main_arg10 : W2 m ρ c (Proc.devRef .tc main_arg10) = W1 m ρ c (Proc.devRef .tc main_arg10) := W2_of_ne m ρ c main_arg10 (by decide)

/-- The program's result: the last boundary's contents at the result buffer. -/
theorem out_eq : W4 m ρ c (Proc.devRef .tc main_v49)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 5).trans ((Layer1.final (V3 m ρ) c).trans ?_)
  show Layer1.G (W3 m ρ c (Proc.devRef .tc main_v33)) (W3 m ρ c (Proc.devRef .tc main_v47)) (W3 m ρ c (Proc.devRef .tc main_arg8)) (W3 m ρ c (Proc.devRef .tc main_arg9)) (W3 m ρ c (Proc.devRef .tc main_v48)) = _
  rw [show W3 m ρ c (Proc.devRef .tc main_v33) = W2 m ρ c (Proc.devRef .tc main_v33) from s1_main_v33 _,
    show W3 m ρ c (Proc.devRef .tc main_v47) = _ from s1_v47 _,
    show W3 m ρ c (Proc.devRef .tc main_arg8) = W2 m ρ c (Proc.devRef .tc main_arg8) from s1_main_arg8 _,
    show W3 m ρ c (Proc.devRef .tc main_arg9) = W2 m ρ c (Proc.devRef .tc main_arg9) from s1_main_arg9 _,
    show W3 m ρ c (Proc.devRef .tc main_v48) = _ from s1_v48 _,
    w2_main_arg2, w2_main_arg3, w2_main_v17, w2_main_arg8, w2_main_arg9, w2_main_arg10, w2_v33,
    w1_v10, w1_v17, w1_v31, w1_v32, w1_main_arg2, w1_main_arg3, w1_main_arg5, w1_main_arg6, w1_main_arg8, w1_main_arg9, w1_main_arg10]
  rfl

end Cert.KernelIdeal.KValue

end
-- ==== Proof.RTerms.lean ====
/-
  The host-side stages of the graph network as functions of arrays, in the spelling of the reference's program:
  `pool` is the mean of a node's word embeddings (a row gather by word id, negative ids wrapped once, the sum over the
  twelve words, the quotient by the node's length); `degDenom` is the in-degree of every node (ones scattered and added at
  the edges' destinations) raised to at least one, as a column; `neigh X` is the mean of `X` over a node's in-neighbours
  (rows of `X` gathered at the edges' sources, negative ids wrapped once, scattered and added at the destinations, divided
  by the column `degDenom` broadcast along the rows); `biasRow` lays a vector out as one row.
-/
import proofs.«175834_j24756191494706_2_alg».proof.Proof.Gen.ReferenceIdeal

noncomputable section

namespace Cert.ReferenceIdeal.Sage

open Cert.ReferenceIdeal Cert.ReferenceIdeal.Gen Idealize.ShloMosaic Idealize.ShloMosaic.TcCoe

variable {F : FTy → Type} [FloatOps F]

/-- An index array with its negative entries wrapped once by the extent `n`. -/
def wrapEdges (n : BitVec 32) (src : (⟨S1000000, .i32⟩ : BufTy).Contents (Elt F)) : (⟨S1000000, .i32⟩ : BufTy).Contents (Elt F) :=
  select (cmpi .slt src (broadcastInDim S1000000 ![] bcast_S_S1000000 (constantI S_ 32 0#32)))
    (addi src (broadcastInDim S1000000 ![] bcast_S_S1000000 (constantI S_ 32 n))) src

/-- The mean-pooled word embeddings of every node. -/
def pool (wids : (⟨S102000x12, .i32⟩ : BufTy).Contents (Elt F)) (lengths : (⟨S102000, .f32⟩ : BufTy).Contents (Elt F)) (emb : (⟨S30001x128, .f32⟩ : BufTy).Contents (Elt F)) :
    (⟨S102000x128, .f32⟩ : BufTy).Contents (Elt F) :=
  Host.divf
    (Host.reduceAdd
      (Host.gather gather_S30001x128_S102000x12x1_S102000x12x128_2_0_n_n_0_2_1128 emb
        (broadcastInDim S102000x12x1 ![0, 1] bcast_S102000x12_S102000x12x1_0_1
          (select (cmpi .slt wids (broadcastInDim S102000x12 ![] bcast_S_S102000x12 (constantI S_ 32 0#32)))
            (addi wids (broadcastInDim S102000x12 ![] bcast_S_S102000x12 (constantI S_ 32 30001#32))) wids)))
      (constant S_ .f32 0x00000000#32) reducesTo_S102000x12x128_S102000x128_d1 h_S_)
    (broadcastInDim S102000x128 ![0, 1] bcast_S102000x1_S102000x128_0_1
      (broadcastInDim S102000x1 ![0] bcast_S102000_S102000x1_0 lengths))

/-- The in-degree of every node, at least one. -/
def degMax (dst : (⟨S1000000, .i32⟩ : BufTy).Contents (Elt F)) : (⟨S102000, .f32⟩ : BufTy).Contents (Elt F) :=
  maximumf
    (Host.scatterAdd scatter_S102000_S1000000x1_S1000000_n_0_0_1
      (broadcastInDim S102000 ![] bcast_S_S102000 (constant S_ .f32 0x00000000#32))
      (broadcastInDim S1000000x1 ![0] bcast_S1000000_S1000000x1_0 dst)
      (broadcastInDim S1000000 ![] bcast_S_S1000000 (constant S_ .f32 0x3F800000#32)))
    (broadcastInDim S102000 ![] bcast_S_S102000 (constant S_ .f32 0x3F800000#32))

/-- The same as a column. -/
def degDenom (dst : (⟨S1000000, .i32⟩ : BufTy).Contents (Elt F)) : (⟨S102000x1, .f32⟩ : BufTy).Contents (Elt F) :=
  broadcastInDim S102000x1 ![0] bcast_S102000_S102000x1_0 (degMax dst)

/-- The sum of `X`'s rows over every node's in-neighbours, divided by the column `dd`. -/
def neigh (X : (⟨S102000x128, .f32⟩ : BufTy).Contents (Elt F)) (src dst : (⟨S1000000, .i32⟩ : BufTy).Contents (Elt F)) (dd : (⟨S102000x1, .f32⟩ : BufTy).Contents (Elt F)) :
    (⟨S102000x128, .f32⟩ : BufTy).Contents (Elt F) :=
  Host.divf
    (Host.scatterAdd scatter_S102000x128_S1000000x1_S1000000x128_1_0_0_1
      (broadcastInDim S102000x128 ![] bcast_S_S102000x128 (constant S_ .f32 0x00000000#32))
      (broadcastInDim S1000000x1 ![0] bcast_S1000000_S1000000x1_0 dst)
      (Host.gather gather_S102000x128_S1000000x1_S1000000x128_1_0_n_n_0_1_1128 X
        (broadcastInDim S1000000x1 ![0] bcast_S1000000_S1000000x1_0 (wrapEdges 102000#32 src))))
    (broadcastInDim S102000x128 ![0, 1] bcast_S102000x1_S102000x128_0_1 dd)

/-- A vector laid out as one row. -/
def biasRow (b : (⟨S128, .f32⟩ : BufTy).Contents (Elt F)) : (⟨S1x128, .f32⟩ : BufTy).Contents (Elt F) :=
  broadcastInDim S1x128 ![1] bcast_S128_S1x128_1 b

/-- One layer's affine part in the host's form. -/
def hostAffine (X H : (⟨S102000x128, .f32⟩ : BufTy).Contents (Elt F)) (Ws Wn : (⟨S128x128, .f32⟩ : BufTy).Contents (Elt F)) (b : (⟨S128, .f32⟩ : BufTy).Contents (Elt F)) :
    (⟨S102000x128, .f32⟩ : BufTy).Contents (Elt F) :=
  addf (addf (Host.dotGeneral dot_S102000x128_S128x128_S102000x128_1_0_0_1_n_n none X Ws)
      (Host.dotGeneral dot_S102000x128_S128x128_S102000x128_1_0_0_1_n_n none H Wn))
    (broadcastInDim S102000x128 ![0, 1] bcast_S1x128_S102000x128_0_1 (biasRow b))

/-- The leaky rectifier in the host's form. -/
def hostLeaky (Y : (⟨S102000x128, .f32⟩ : BufTy).Contents (Elt F)) : (⟨S102000x128, .f32⟩ : BufTy).Contents (Elt F) :=
  select (cmpf .oge Y (broadcastInDim S102000x128 ![] bcast_S_S102000x128 (constant S_ .f32 0x00000000#32))) Y
    (mulf (broadcastInDim S102000x128 ![] bcast_S_S102000x128 (id (constant S_ .f32 0x3C23D70A#32))) Y)

/-- The reference's result as a function of its arguments: two layers over the pooled embeddings, the first rectified. -/
def out (wids : (⟨S102000x12, .i32⟩ : BufTy).Contents (Elt F)) (lengths : (⟨S102000, .f32⟩ : BufTy).Contents (Elt F)) (src dst : (⟨S1000000, .i32⟩ : BufTy).Contents (Elt F))
    (emb : (⟨S30001x128, .f32⟩ : BufTy).Contents (Elt F)) (W1s W1n : (⟨S128x128, .f32⟩ : BufTy).Contents (Elt F)) (b1 : (⟨S128, .f32⟩ : BufTy).Contents (Elt F))
    (W2s W2n : (⟨S128x128, .f32⟩ : BufTy).Contents (Elt F)) (b2 : (⟨S128, .f32⟩ : BufTy).Contents (Elt F)) : (⟨S102000x128, .f32⟩ : BufTy).Contents (Elt F) :=
  let h := pool wids lengths emb
  let l := hostLeaky (hostAffine h (neigh h src dst (degDenom dst)) W1s W1n b1)
  hostAffine l (neigh l src dst (degDenom dst)) W2s W2n b2

end Cert.ReferenceIdeal.Sage

end
-- ==== Proof.RRun.lean ====
/-
  The reference program's run read back. Its entry function is a straight line of host operations once the rectifier's
  two helper functions are unfolded at their call: `ops` lists them in order, and every weakly fair execution ends with
  each buffer at the fold of those operations over the launch memory. Read at the result buffer the fold is `Sage.out`
  of the argument arrays (each operation's result substituted into its consumers), and at an argument it is the argument.
-/
import proofs.«175834_j24756191494706_2_alg».proof.Proof.Gen.ReferenceIdeal
import proofs.«175834_j24756191494706_2_alg».proof.Proof.RTerms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, the rectifier's seven written out at its call. -/
abbrev ops : List (HloOp τ sig (Elt F)) :=
  [ nullary main_c (constantI S_ 32 0#32),
    unary main_c main_v0 (broadcastInDim S102000x12 ![] bcast_S_S102000x12 : (⟨S_, .i32⟩ : BufTy).Contents (Elt F) → (⟨S102000x12, .i32⟩ : BufTy).Contents (Elt F)),
    binary main_arg0 main_v0 main_v1 (cmpi .slt : (⟨S102000x12, .i32⟩ : BufTy).Contents (Elt F) → (⟨S102000x12, .i32⟩ : BufTy).Contents (Elt F) → (⟨S102000x12, .i1⟩ : BufTy).Contents (Elt F)),
    nullary main_c_0 (constantI S_ 32 30001#32),
    unary main_c_0 main_v2 (broadcastInDim S102000x12 ![] bcast_S_S102000x12 : (⟨S_, .i32⟩ : BufTy).Contents (Elt F) → (⟨S102000x12, .i32⟩ : BufTy).Contents (Elt F)),
    binary main_arg0 main_v2 main_v3 (addi : (⟨S102000x12, .i32⟩ : BufTy).Contents (Elt F) → (⟨S102000x12, .i32⟩ : BufTy).Contents (Elt F) → (⟨S102000x12, .i32⟩ : BufTy).Contents (Elt F)),
    ternary main_v1 main_v3 main_arg0 main_v4 (select : (⟨S102000x12, .i1⟩ : BufTy).Contents (Elt F) → (⟨S102000x12, .i32⟩ : BufTy).Contents (Elt F) → (⟨S102000x12, .i32⟩ : BufTy).Contents (Elt F) → (⟨S102000x12, .i32⟩ : BufTy).Contents (Elt F)),
    unary main_v4 main_v5 (broadcastInDim S102000x12x1 ![0, 1] bcast_S102000x12_S102000x12x1_0_1 : (⟨S102000x12, .i32⟩ : BufTy).Contents (Elt F) → (⟨S102000x12x1, .i32⟩ : BufTy).Contents (Elt F)),
    binary main_arg4 main_v5 main_v6 ((fun x i => Host.gather gather_S30001x128_S102000x12x1_S102000x12x128_2_0_n_n_0_2_1128 x i) : (⟨S30001x128, .f32⟩ : BufTy).Contents (Elt F) → (⟨S102000x12x1, .i32⟩ : BufTy).Contents (Elt F) → (⟨S102000x12x128, .f32⟩ : BufTy).Contents (Elt F)),
    nullary main_cst (constant S_ .f32 0x00000000#32),
    binary main_v6 main_cst main_v7 ((fun x v => Host.reduceAdd x v reducesTo_S102000x12x128_S102000x128_d1 h_S_) : (⟨S102000x12x128, .f32⟩ : BufTy).Contents (Elt F) → (⟨S_, .f32⟩ : BufTy).Contents (Elt F) → (⟨S102000x128, .f32⟩ : BufTy).Contents (Elt F)),
    unary main_arg1 main_v8 (broadcastInDim S102000x1 ![0] bcast_S102000_S102000x1_0 : (⟨S102000, .f32⟩ : BufTy).Contents (Elt F) → (⟨S102000x1, .f32⟩ : BufTy).Contents (Elt F)),
    unary main_v8 main_v9 (broadcastInDim S102000x128 ![0, 1] bcast_S102000x1_S102000x128_0_1 : (⟨S102000x1, .f32⟩ : BufTy).Contents (Elt F) → (⟨S102000x128, .f32⟩ : BufTy).Contents (Elt F)),
    binary main_v7 main_v9 main_v10 (Host.divf : (⟨S102000x128, .f32⟩ : BufTy).Contents (Elt F) → (⟨S102000x128, .f32⟩ : BufTy).Contents (Elt F) → (⟨S102000x128, .f32⟩ : BufTy).Contents (Elt F)),
    nullary main_cst_1 (constant S_ .f32 0x3F800000#32),
    unary main_cst_1 main_v11 (broadcastInDim S1000000 ![] bcast_S_S1000000 : (⟨S_, .f32⟩ : BufTy).Contents (Elt F) → (⟨S1000000, .f32⟩ : BufTy).Contents (Elt F)),
    nullary main_cst_2 (constant S_ .f32 0x00000000#32),
    unary main_cst_2 main_v12 (broadcastInDim S102000 ![] bcast_S_S102000 : (⟨S_, .f32⟩ : BufTy).Contents (Elt F) → (⟨S102000, .f32⟩ : BufTy).Contents (Elt F)),
    unary main_arg3 main_v13 (broadcastInDim S1000000x1 ![0] bcast_S1000000_S1000000x1_0 : (⟨S1000000, .i32⟩ : BufTy).Contents (Elt F) → (⟨S1000000x1, .i32⟩ : BufTy).Contents (Elt F)),
    ternary main_v12 main_v13 main_v11 main_v14 ((fun x i u => Host.scatterAdd scatter_S102000_S1000000x1_S1000000_n_0_0_1 x i u) : (⟨S102000, .f32⟩ : BufTy).Contents (Elt F) → (⟨S1000000x1, .i32⟩ : BufTy).Contents (Elt F) → (⟨S1000000, .f32⟩ : BufTy).Contents (Elt F) → (⟨S102000, .f32⟩ : BufTy).Contents (Elt F)),
    nullary main_c_3 (constantI S_ 32 0#32),
    unary main_c_3 main_v15 (broadcastInDim S1000000 ![] bcast_S_S1000000 : (⟨S_, .i32⟩ : BufTy).Contents (Elt F) → (⟨S1000000, .i32⟩ : BufTy).Contents (Elt F)),
    binary main_arg2 main_v15 main_v16 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 102000#32),
    unary main_c_4 main_v17 (broadcastInDim S1000000 ![] bcast_S_S1000000 : (⟨S_, .i32⟩ : BufTy).Contents (Elt F) → (⟨S1000000, .i32⟩ : BufTy).Contents (Elt F)),
    binary main_arg2 main_v17 main_v18 (addi : (⟨S1000000, .i32⟩ : BufTy).Contents (Elt F) → (⟨S1000000, .i32⟩ : BufTy).Contents (Elt F) → (⟨S1000000, .i32⟩ : BufTy).Contents (Elt F)),
    ternary main_v16 main_v18 main_arg2 main_v19 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v19 main_v20 (broadcastInDim S1000000x1 ![0] bcast_S1000000_S1000000x1_0 : (⟨S1000000, .i32⟩ : BufTy).Contents (Elt F) → (⟨S1000000x1, .i32⟩ : BufTy).Contents (Elt F)),
    binary main_v10 main_v20 main_v21 ((fun x i => Host.gather gather_S102000x128_S1000000x1_S1000000x128_1_0_n_n_0_1_1128 x i) : (⟨S102000x128, .f32⟩ : BufTy).Contents (Elt F) → (⟨S1000000x1, .i32⟩ : BufTy).Contents (Elt F) → (⟨S1000000x128, .f32⟩ : BufTy).Contents (Elt F)),
    nullary main_cst_5 (constant S_ .f32 0x00000000#32),
    unary main_cst_5 main_v22 (broadcastInDim S102000x128 ![] bcast_S_S102000x128 : (⟨S_, .f32⟩ : BufTy).Contents (Elt F) → (⟨S102000x128, .f32⟩ : BufTy).Contents (Elt F)),
    unary main_arg3 main_v23 (broadcastInDim S1000000x1 ![0] bcast_S1000000_S1000000x1_0 : (⟨S1000000, .i32⟩ : BufTy).Contents (Elt F) → (⟨S1000000x1, .i32⟩ : BufTy).Contents (Elt F)),
    ternary main_v22 main_v23 main_v21 main_v24 ((fun x i u => Host.scatterAdd scatter_S102000x128_S1000000x1_S1000000x128_1_0_0_1 x i u) : (⟨S102000x128, .f32⟩ : BufTy).Contents (Elt F) → (⟨S1000000x1, .i32⟩ : BufTy).Contents (Elt F) → (⟨S1000000x128, .f32⟩ : BufTy).Contents (Elt F) → (⟨S102000x128, .f32⟩ : BufTy).Contents (Elt F)),
    nullary main_cst_6 (constant S_ .f32 0x3F800000#32),
    unary main_cst_6 main_v25 (broadcastInDim S102000 ![] bcast_S_S102000 : (⟨S_, .f32⟩ : BufTy).Contents (Elt F) → (⟨S102000, .f32⟩ : BufTy).Contents (Elt F)),
    binary main_v14 main_v25 main_v26 (maximumf : (⟨S102000, .f32⟩ : BufTy).Contents (Elt F) → (⟨S102000, .f32⟩ : BufTy).Contents (Elt F) → (⟨S102000, .f32⟩ : BufTy).Contents (Elt F)),
    unary main_v26 main_v27 (broadcastInDim S102000x1 ![0] bcast_S102000_S102000x1_0 : (⟨S102000, .f32⟩ : BufTy).Contents (Elt F) → (⟨S102000x1, .f32⟩ : BufTy).Contents (Elt F)),
    unary main_v27 main_v28 (broadcastInDim S102000x128 ![0, 1] bcast_S102000x1_S102000x128_0_1 : (⟨S102000x1, .f32⟩ : BufTy).Contents (Elt F) → (⟨S102000x128, .f32⟩ : BufTy).Contents (Elt F)),
    binary main_v24 main_v28 main_v29 (Host.divf : (⟨S102000x128, .f32⟩ : BufTy).Contents (Elt F) → (⟨S102000x128, .f32⟩ : BufTy).Contents (Elt F) → (⟨S102000x128, .f32⟩ : BufTy).Contents (Elt F)),
    binary main_v10 main_arg5 main_v30 ((fun l r => Host.dotGeneral dot_S102000x128_S128x128_S102000x128_1_0_0_1_n_n none l r) : (⟨S102000x128, .f32⟩ : BufTy).Contents (Elt F) → (⟨S128x128, .f32⟩ : BufTy).Contents (Elt F) → (⟨S102000x128, .f32⟩ : BufTy).Contents (Elt F)),
    binary main_v29 main_arg6 main_v31 ((fun l r => Host.dotGeneral dot_S102000x128_S128x128_S102000x128_1_0_0_1_n_n none l r) : (⟨S102000x128, .f32⟩ : BufTy).Contents (Elt F) → (⟨S128x128, .f32⟩ : BufTy).Contents (Elt F) → (⟨S102000x128, .f32⟩ : BufTy).Contents (Elt F)),
    binary main_v30 main_v31 main_v32 (addf : (⟨S102000x128, .f32⟩ : BufTy).Contents (Elt F) → (⟨S102000x128, .f32⟩ : BufTy).Contents (Elt F) → (⟨S102000x128, .f32⟩ : BufTy).Contents (Elt F)),
    unary main_arg7 main_v33 (broadcastInDim S1x128 ![1] bcast_S128_S1x128_1 : (⟨S128, .f32⟩ : BufTy).Contents (Elt F) → (⟨S1x128, .f32⟩ : BufTy).Contents (Elt F)),
    unary main_v33 main_v34 (broadcastInDim S102000x128 ![0, 1] bcast_S1x128_S102000x128_0_1 : (⟨S1x128, .f32⟩ : BufTy).Contents (Elt F) → (⟨S102000x128, .f32⟩ : BufTy).Contents (Elt F)),
    binary main_v32 main_v34 main_v35 (addf : (⟨S102000x128, .f32⟩ : BufTy).Contents (Elt F) → (⟨S102000x128, .f32⟩ : BufTy).Contents (Elt F) → (⟨S102000x128, .f32⟩ : BufTy).Contents (Elt F)),
    nullary main_cst_7 (constant S_ .f32 0x3C23D70A#32),
    nullary main_call0_cst (constant S_ .f32 0x00000000#32),
    unary main_call0_cst main_call0_v0 (broadcastInDim S102000x128 ![] bcast_S_S102000x128 : (⟨S_, .f32⟩ : BufTy).Contents (Elt F) → (⟨S102000x128, .f32⟩ : BufTy).Contents (Elt F)),
    binary main_v35 main_call0_v0 main_call0_v1 (cmpf .oge : (⟨S102000x128, .f32⟩ : BufTy).Contents (Elt F) → (⟨S102000x128, .f32⟩ : BufTy).Contents (Elt F) → (⟨S102000x128, .i1⟩ : BufTy).Contents (Elt F)),
    unary main_cst_7 main_call0_v2 (id : (⟨S_, .f32⟩ : BufTy).Contents (Elt F) → (⟨S_, .f32⟩ : BufTy).Contents (Elt F)),
    unary main_call0_v2 main_call0_v3 (broadcastInDim S102000x128 ![] bcast_S_S102000x128 : (⟨S_, .f32⟩ : BufTy).Contents (Elt F) → (⟨S102000x128, .f32⟩ : BufTy).Contents (Elt F)),
    binary main_call0_v3 main_v35 main_call0_v4 (mulf : (⟨S102000x128, .f32⟩ : BufTy).Contents (Elt F) → (⟨S102000x128, .f32⟩ : BufTy).Contents (Elt F) → (⟨S102000x128, .f32⟩ : BufTy).Contents (Elt F)),
    ternary main_call0_v1 main_v35 main_call0_v4 main_v36 (select : (⟨S102000x128, .i1⟩ : BufTy).Contents (Elt F) → (⟨S102000x128, .f32⟩ : BufTy).Contents (Elt F) → (⟨S102000x128, .f32⟩ : BufTy).Contents (Elt F) → (⟨S102000x128, .f32⟩ : BufTy).Contents (Elt F)),
    nullary main_cst_8 (constant S_ .f32 0x3F800000#32),
    unary main_cst_8 main_v37 (broadcastInDim S1000000 ![] bcast_S_S1000000 : (⟨S_, .f32⟩ : BufTy).Contents (Elt F) → (⟨S1000000, .f32⟩ : BufTy).Contents (Elt F)),
    nullary main_cst_9 (constant S_ .f32 0x00000000#32),
    unary main_cst_9 main_v38 (broadcastInDim S102000 ![] bcast_S_S102000 : (⟨S_, .f32⟩ : BufTy).Contents (Elt F) → (⟨S102000, .f32⟩ : BufTy).Contents (Elt F)),
    unary main_arg3 main_v39 (broadcastInDim S1000000x1 ![0] bcast_S1000000_S1000000x1_0 : (⟨S1000000, .i32⟩ : BufTy).Contents (Elt F) → (⟨S1000000x1, .i32⟩ : BufTy).Contents (Elt F)),
    ternary main_v38 main_v39 main_v37 main_v40 ((fun x i u => Host.scatterAdd scatter_S102000_S1000000x1_S1000000_n_0_0_1 x i u) : (⟨S102000, .f32⟩ : BufTy).Contents (Elt F) → (⟨S1000000x1, .i32⟩ : BufTy).Contents (Elt F) → (⟨S1000000, .f32⟩ : BufTy).Contents (Elt F) → (⟨S102000, .f32⟩ : BufTy).Contents (Elt F)),
    nullary main_c_10 (constantI S_ 32 0#32),
    unary main_c_10 main_v41 (broadcastInDim S1000000 ![] bcast_S_S1000000 : (⟨S_, .i32⟩ : BufTy).Contents (Elt F) → (⟨S1000000, .i32⟩ : BufTy).Contents (Elt F)),
    binary main_arg2 main_v41 main_v42 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 102000#32),
    unary main_c_11 main_v43 (broadcastInDim S1000000 ![] bcast_S_S1000000 : (⟨S_, .i32⟩ : BufTy).Contents (Elt F) → (⟨S1000000, .i32⟩ : BufTy).Contents (Elt F)),
    binary main_arg2 main_v43 main_v44 (addi : (⟨S1000000, .i32⟩ : BufTy).Contents (Elt F) → (⟨S1000000, .i32⟩ : BufTy).Contents (Elt F) → (⟨S1000000, .i32⟩ : BufTy).Contents (Elt F)),
    ternary main_v42 main_v44 main_arg2 main_v45 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v45 main_v46 (broadcastInDim S1000000x1 ![0] bcast_S1000000_S1000000x1_0 : (⟨S1000000, .i32⟩ : BufTy).Contents (Elt F) → (⟨S1000000x1, .i32⟩ : BufTy).Contents (Elt F)),
    binary main_v36 main_v46 main_v47 ((fun x i => Host.gather gather_S102000x128_S1000000x1_S1000000x128_1_0_n_n_0_1_1128 x i) : (⟨S102000x128, .f32⟩ : BufTy).Contents (Elt F) → (⟨S1000000x1, .i32⟩ : BufTy).Contents (Elt F) → (⟨S1000000x128, .f32⟩ : BufTy).Contents (Elt F)),
    nullary main_cst_12 (constant S_ .f32 0x00000000#32),
    unary main_cst_12 main_v48 (broadcastInDim S102000x128 ![] bcast_S_S102000x128 : (⟨S_, .f32⟩ : BufTy).Contents (Elt F) → (⟨S102000x128, .f32⟩ : BufTy).Contents (Elt F)),
    unary main_arg3 main_v49 (broadcastInDim S1000000x1 ![0] bcast_S1000000_S1000000x1_0 : (⟨S1000000, .i32⟩ : BufTy).Contents (Elt F) → (⟨S1000000x1, .i32⟩ : BufTy).Contents (Elt F)),
    ternary main_v48 main_v49 main_v47 main_v50 ((fun x i u => Host.scatterAdd scatter_S102000x128_S1000000x1_S1000000x128_1_0_0_1 x i u) : (⟨S102000x128, .f32⟩ : BufTy).Contents (Elt F) → (⟨S1000000x1, .i32⟩ : BufTy).Contents (Elt F) → (⟨S1000000x128, .f32⟩ : BufTy).Contents (Elt F) → (⟨S102000x128, .f32⟩ : BufTy).Contents (Elt F)),
    nullary main_cst_13 (constant S_ .f32 0x3F800000#32),
    unary main_cst_13 main_v51 (broadcastInDim S102000 ![] bcast_S_S102000 : (⟨S_, .f32⟩ : BufTy).Contents (Elt F) → (⟨S102000, .f32⟩ : BufTy).Contents (Elt F)),
    binary main_v40 main_v51 main_v52 (maximumf : (⟨S102000, .f32⟩ : BufTy).Contents (Elt F) → (⟨S102000, .f32⟩ : BufTy).Contents (Elt F) → (⟨S102000, .f32⟩ : BufTy).Contents (Elt F)),
    unary main_v52 main_v53 (broadcastInDim S102000x1 ![0] bcast_S102000_S102000x1_0 : (⟨S102000, .f32⟩ : BufTy).Contents (Elt F) → (⟨S102000x1, .f32⟩ : BufTy).Contents (Elt F)),
    unary main_v53 main_v54 (broadcastInDim S102000x128 ![0, 1] bcast_S102000x1_S102000x128_0_1 : (⟨S102000x1, .f32⟩ : BufTy).Contents (Elt F) → (⟨S102000x128, .f32⟩ : BufTy).Contents (Elt F)),
    binary main_v50 main_v54 main_v55 (Host.divf : (⟨S102000x128, .f32⟩ : BufTy).Contents (Elt F) → (⟨S102000x128, .f32⟩ : BufTy).Contents (Elt F) → (⟨S102000x128, .f32⟩ : BufTy).Contents (Elt F)),
    binary main_v36 main_arg8 main_v56 ((fun l r => Host.dotGeneral dot_S102000x128_S128x128_S102000x128_1_0_0_1_n_n none l r) : (⟨S102000x128, .f32⟩ : BufTy).Contents (Elt F) → (⟨S128x128, .f32⟩ : BufTy).Contents (Elt F) → (⟨S102000x128, .f32⟩ : BufTy).Contents (Elt F)),
    binary main_v55 main_arg9 main_v57 ((fun l r => Host.dotGeneral dot_S102000x128_S128x128_S102000x128_1_0_0_1_n_n none l r) : (⟨S102000x128, .f32⟩ : BufTy).Contents (Elt F) → (⟨S128x128, .f32⟩ : BufTy).Contents (Elt F) → (⟨S102000x128, .f32⟩ : BufTy).Contents (Elt F)),
    binary main_v56 main_v57 main_v58 (addf : (⟨S102000x128, .f32⟩ : BufTy).Contents (Elt F) → (⟨S102000x128, .f32⟩ : BufTy).Contents (Elt F) → (⟨S102000x128, .f32⟩ : BufTy).Contents (Elt F)),
    unary main_arg10 main_v59 (broadcastInDim S1x128 ![1] bcast_S128_S1x128_1 : (⟨S128, .f32⟩ : BufTy).Contents (Elt F) → (⟨S1x128, .f32⟩ : BufTy).Contents (Elt F)),
    unary main_v59 main_v60 (broadcastInDim S102000x128 ![0, 1] bcast_S1x128_S102000x128_0_1 : (⟨S1x128, .f32⟩ : BufTy).Contents (Elt F) → (⟨S102000x128, .f32⟩ : BufTy).Contents (Elt F)),
    binary main_v58 main_v60 main_v61 (addf : (⟨S102000x128, .f32⟩ : BufTy).Contents (Elt F) → (⟨S102000x128, .f32⟩ : BufTy).Contents (Elt F) → (⟨S102000x128, .f32⟩ : BufTy).Contents (Elt F)) ]

set_option maxRecDepth 8192 in
set_option maxHeartbeats 4000000 in
/-- The entry function is that straight line: the two halves and the helper functions unfolded, sequencing reassociated. -/
theorem main_eq (c : Dev nD) : main (F := F) c = seq ops := by
  simp only [main, main_part0, main_part1, fn_leaky_relu.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub ..⟩

attribute [local irreducible] Host.gather Host.scatterAdd Host.reduceAdd in
set_option maxRecDepth 16384 in
set_option maxHeartbeats 4000000 in
/-- The fold at the result buffer is the reference's function of the argument arrays. -/
theorem out_eq (V : Valuation τ sig (Elt F)) :
    after ops V (main_v61 : DevRef τ sig)
      = Sage.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) := by
  after_results_simp
  rfl

set_option maxRecDepth 16384 in
theorem main_arg0_eq (V : Valuation τ sig (Elt F)) : after ops V (main_arg0 : DevRef τ sig) = V (main_arg0 : DevRef τ sig) := by
  after_results_simp
set_option maxRecDepth 16384 in
theorem main_arg1_eq (V : Valuation τ sig (Elt F)) : after ops V (main_arg1 : DevRef τ sig) = V (main_arg1 : DevRef τ sig) := by
  after_results_simp
set_option maxRecDepth 16384 in
theorem main_arg2_eq (V : Valuation τ sig (Elt F)) : after ops V (main_arg2 : DevRef τ sig) = V (main_arg2 : DevRef τ sig) := by
  after_results_simp
set_option maxRecDepth 16384 in
theorem main_arg3_eq (V : Valuation τ sig (Elt F)) : after ops V (main_arg3 : DevRef τ sig) = V (main_arg3 : DevRef τ sig) := by
  after_results_simp
set_option maxRecDepth 16384 in
theorem main_arg4_eq (V : Valuation τ sig (Elt F)) : after ops V (main_arg4 : DevRef τ sig) = V (main_arg4 : DevRef τ sig) := by
  after_results_simp
set_option maxRecDepth 16384 in
theorem main_arg5_eq (V : Valuation τ sig (Elt F)) : after ops V (main_arg5 : DevRef τ sig) = V (main_arg5 : DevRef τ sig) := by
  after_results_simp
set_option maxRecDepth 16384 in
theorem main_arg6_eq (V : Valuation τ sig (Elt F)) : after ops V (main_arg6 : DevRef τ sig) = V (main_arg6 : DevRef τ sig) := by
  after_results_simp
set_option maxRecDepth 16384 in
theorem main_arg7_eq (V : Valuation τ sig (Elt F)) : after ops V (main_arg7 : DevRef τ sig) = V (main_arg7 : DevRef τ sig) := by
  after_results_simp
set_option maxRecDepth 16384 in
theorem main_arg8_eq (V : Valuation τ sig (Elt F)) : after ops V (main_arg8 : DevRef τ sig) = V (main_arg8 : DevRef τ sig) := by
  after_results_simp
set_option maxRecDepth 16384 in
theorem main_arg9_eq (V : Valuation τ sig (Elt F)) : after ops V (main_arg9 : DevRef τ sig) = V (main_arg9 : DevRef τ sig) := by
  after_results_simp
set_option maxRecDepth 16384 in
theorem main_arg10_eq (V : Valuation τ sig (Elt F)) : after ops V (main_arg10 : DevRef τ sig) = V (main_arg10 : DevRef τ sig) := by
  after_results_simp

/-- Every weakly fair execution of the reference terminates, its result at `Sage.out` of the argument arrays and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61)
        = Sage.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v61).trans (out_eq _),
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _),
      (h c main_arg6).trans (main_arg6_eq _),
      (h c main_arg7).trans (main_arg7_eq _),
      (h c main_arg8).trans (main_arg8_eq _),
      (h c main_arg9).trans (main_arg9_eq _),
      (h c main_arg10).trans (main_arg10_eq _)⟩)
    (run_seq scopedRefs_eq scopedSems_eq defs main (fun _ => ops) main_eq (fun _ => ops_sub) m ρ)

end Cert.ReferenceIdeal.RefRun

end
-- ==== Proof.Bridge.lean ====
/-
  The two programs compute one function. Their host-side stages are the same operations under two spellings: the pooled
  embeddings, the in-degree column, the bias rows, and the neighbour mean — where the kernel's program narrows the features
  to half precision before the gather and widens the gathered rows again, which on the extended reals changes nothing.
  The reference's layer — two dot products, the bias broadcast along the rows, for the first layer the rectifier written
  with a comparison and a selection — is the same `X Ws + H Wn + B` (through the same rectifier) that the kernel's
  row-blocked transform leaves in its result array. The reference computes the in-degree column once per layer and the
  kernel's program once: both are the same term.
-/
import proofs.«175834_j24756191494706_2_alg».proof.Proof.KValue
import proofs.«175834_j24756191494706_2_alg».proof.Proof.RTerms
import proofs.«175834_j24756191494706_2_alg».proof.Proof.LibSageLayer

set_option maxRecDepth 16384

noncomputable section

namespace Cert.Bridge

open Idealize.ShloMosaic Cert.Dense Cert.SageLayer

theorem pool_eq (wids : (⟨Cert.KernelIdeal.S102000x12, .i32⟩ : BufTy).Contents (Elt Ideal)) (lengths : (⟨Cert.KernelIdeal.S102000, .f32⟩ : BufTy).Contents (Elt Ideal)) (emb : (⟨Cert.KernelIdeal.S30001x128, .f32⟩ : BufTy).Contents (Elt Ideal)) :
    Cert.KernelIdeal.Sage.pool (F := Ideal) wids lengths emb = Cert.ReferenceIdeal.Sage.pool (F := Ideal) wids lengths emb := rfl

theorem degDenom_eq (dst : (⟨Cert.KernelIdeal.S1000000, .i32⟩ : BufTy).Contents (Elt Ideal)) :
    Cert.KernelIdeal.Sage.degDenom (F := Ideal) dst = Cert.ReferenceIdeal.Sage.degDenom (F := Ideal) dst := rfl

/-- The changes of format around the gather are the identity on the extended reals. -/
theorem neigh_eq (X : (⟨Cert.KernelIdeal.S102000x128, .f32⟩ : BufTy).Contents (Elt Ideal)) (src dst : (⟨Cert.KernelIdeal.S1000000, .i32⟩ : BufTy).Contents (Elt Ideal)) (dd : (⟨Cert.KernelIdeal.S102000x1, .f32⟩ : BufTy).Contents (Elt Ideal)) :
    Cert.KernelIdeal.Sage.neigh (F := Ideal) X src dst dd = Cert.ReferenceIdeal.Sage.neigh (F := Ideal) X src dst dd := rfl

theorem biasRow_eq (b : (⟨Cert.KernelIdeal.S128, .f32⟩ : BufTy).Contents (Elt Ideal)) :
    Cert.KernelIdeal.Sage.biasRow (F := Ideal) b = Cert.ReferenceIdeal.Sage.biasRow (F := Ideal) b := rfl

/-- The reference's affine part is `X Ws + H Wn + B` with `B` the bias laid out as a row. -/
theorem hostAffine_eq (X H : (⟨Cert.KernelIdeal.S102000x128, .f32⟩ : BufTy).Contents (Elt Ideal)) (Ws Wn : (⟨Cert.KernelIdeal.S128x128, .f32⟩ : BufTy).Contents (Elt Ideal)) (b : (⟨Cert.KernelIdeal.S128, .f32⟩ : BufTy).Contents (Elt Ideal)) :
    Cert.ReferenceIdeal.Sage.hostAffine (F := Ideal) X H Ws Wn b
      = affine X H Ws Wn (Cert.ReferenceIdeal.Sage.biasRow (F := Ideal) b) :=
  SageLayer.hostAffine Cert.ReferenceIdeal.dot_S102000x128_S128x128_S102000x128_1_0_0_1_n_n rfl rfl rfl rfl rfl rfl X H Ws Wn _ _

/-- The reference's rectifier is the leaky rectifier at every entry. -/
theorem hostLeaky_eq (Y : (⟨Cert.KernelIdeal.S102000x128, .f32⟩ : BufTy).Contents (Elt Ideal)) :
    Cert.ReferenceIdeal.Sage.hostLeaky (F := Ideal) Y = fun i => leaky (Y i) :=
  SageLayer.hostLeaky Y _

/-- The kernel program's function of the arguments is the reference's. -/
theorem out_eq (wids : (⟨Cert.KernelIdeal.S102000x12, .i32⟩ : BufTy).Contents (Elt Ideal)) (lengths : (⟨Cert.KernelIdeal.S102000, .f32⟩ : BufTy).Contents (Elt Ideal)) (src dst : (⟨Cert.KernelIdeal.S1000000, .i32⟩ : BufTy).Contents (Elt Ideal))
    (emb : (⟨Cert.KernelIdeal.S30001x128, .f32⟩ : BufTy).Contents (Elt Ideal)) (W1s W1n : (⟨Cert.KernelIdeal.S128x128, .f32⟩ : BufTy).Contents (Elt Ideal)) (b1 : (⟨Cert.KernelIdeal.S128, .f32⟩ : BufTy).Contents (Elt Ideal))
    (W2s W2n : (⟨Cert.KernelIdeal.S128x128, .f32⟩ : BufTy).Contents (Elt Ideal)) (b2 : (⟨Cert.KernelIdeal.S128, .f32⟩ : BufTy).Contents (Elt Ideal)) :
    Cert.KernelIdeal.KValue.out wids lengths src dst emb W1s W1n b1 W2s W2n b2
      = Cert.ReferenceIdeal.Sage.out (F := Ideal) wids lengths src dst emb W1s W1n b1 W2s W2n b2 := by
  unfold Cert.KernelIdeal.KValue.out Cert.ReferenceIdeal.Sage.out
  dsimp only
  rw [hostAffine_eq, hostAffine_eq, hostLeaky_eq, pool_eq, degDenom_eq, neigh_eq, neigh_eq, biasRow_eq, biasRow_eq]
  rfl

end Cert.Bridge

end
-- ==== Proof.lean ====
/-
  The certificate of a two-layer mean-aggregating graph network over mean-pooled word embeddings: the kernel program
  computes each layer's dense transform `X Ws + H Wn + b` (the first through a leaky rectifier) block of rows by block
  of rows on the vector unit, with operands narrowed to half precision, and everything else — the pooling, the in-degrees,
  the neighbour means — on the host; the reference computes everything on the host with dot products. On the extended
  reals the changes of format are the identity, a matrix product into a zero accumulator is the dot product, and a row of
  a layer's result depends on the same rows of its operands only, so the row blocks assemble to the whole layer: the two
  programs end with the same array, entry by entry. No law that needs finiteness is used, only that both sides are the
  same sums and products in the same order of operations.

  The frames of the two kernel programs are the generated ones; the reference's frame is its run with the result dropped.
  The idealization rewrote no operation, so there is nothing to preserve.
-/
import proofs.«175834_j24756191494706_2_alg».proof.Defs
import proofs.«175834_j24756191494706_2_alg».proof.Proof.Gen.Kernel
import proofs.«175834_j24756191494706_2_alg».proof.Proof.Gen.Kernel.Frame
import proofs.«175834_j24756191494706_2_alg».proof.Proof.Gen.KernelIdeal
import proofs.«175834_j24756191494706_2_alg».proof.Proof.Gen.KernelIdeal.Frame
import proofs.«175834_j24756191494706_2_alg».proof.Proof.Gen.ReferenceIdeal
import proofs.«175834_j24756191494706_2_alg».proof.Proof.Gen.Pre_finite_inputs
import proofs.«175834_j24756191494706_2_alg».proof.Proof.KRun
import proofs.«175834_j24756191494706_2_alg».proof.Proof.KValue
import proofs.«175834_j24756191494706_2_alg».proof.Proof.RRun
import proofs.«175834_j24756191494706_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both programs end, from memories agreeing on the arguments, with the same result array: the kernel program's is
    its function of the arguments, the reference's is its own, and the two functions are one. -/
theorem algebraic : Cert.algebraic_KernelIdeal_ReferenceIdeal := by
  intro m ρ m' ρ' _ hagree
  refine ⟨fun c => Cert.KernelIdeal.KValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KValue.out_eq m ρ c), (h c).2⟩)
      (Cert.KernelIdeal.KRun.run_valued (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10⟩ := hagree c
    rw [e0, e1, e2, e3, e4, e5, e6, e7, e8, e9, e10]
    exact (Cert.Bridge.out_eq _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
